-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8 : Shape := ⟨3, ![16, 512, 8]⟩
abbrev S64x32x8 : Shape := ⟨3, ![64, 32, 8]⟩
abbrev S_ : Shape := ⟨0, ![]⟩

class Facts : Prop where
  bcast_S_S16x512x8 : S_.BroadcastsInDim S16x512x8 (![] : Fin 0 → Fin S16x512x8.rank)
  reducesTo_S16x512x8_S_d0_1_2 : S16x512x8.ReducesTo [0, 1, 2] S_
  h_S_ : 0 < S_.numel
  bcast_S_S64x32x8 : S_.BroadcastsInDim S64x32x8 (![] : Fin 0 → Fin S64x32x8.rank)
  reducesTo_S64x32x8_S_d0_1_2 : S64x32x8.ReducesTo [0, 1, 2] S_

variable [Facts]

def fn {F : FTy → Type} [FloatOps F] (main_arg0 : FVec F S16x512x8 .f32) (main_arg1 : FVec F S64x32x8 .f32) : IVec S_ 1 :=
  let main_v0 : FVec F S16x512x8 .f32 := Host.absf main_arg0
  let main_cst : FVec F S_ .f32 := constant S_ .f32 0x7F800000#32
  let main_v1 : FVec F S16x512x8 .f32 := broadcastInDim S16x512x8 ![] bcast_S_S16x512x8 main_cst
  let main_v2 : IVec S16x512x8 1 := cmpf .olt main_v0 main_v1
  let main_c : IVec S_ 1 := constantI S_ 1 1#1
  let main_v3 : IVec S_ 1 := (fun x v => Host.reduce IntOp.andi x v reducesTo_S16x512x8_S_d0_1_2 h_S_) main_v2 main_c
  let main_v4 : FVec F S64x32x8 .f32 := Host.absf main_arg1
  let main_cst_0 : FVec F S_ .f32 := constant S_ .f32 0x7F800000#32
  let main_v5 : FVec F S64x32x8 .f32 := broadcastInDim S64x32x8 ![] bcast_S_S64x32x8 main_cst_0
  let main_v6 : IVec S64x32x8 1 := cmpf .olt main_v4 main_v5
  let main_c_1 : IVec S_ 1 := constantI S_ 1 1#1
  let main_v7 : IVec S_ 1 := (fun x v => Host.reduce IntOp.andi x v reducesTo_S64x32x8_S_d0_1_2 h_S_) main_v6 main_c_1
  let main_v8 : IVec S_ 1 := andi main_v3 main_v7
  main_v8
-- ==== Kernel.lean ====
abbrev S16x512x8 : Shape := ⟨3, ![16, 512, 8]⟩
abbrev S64x32x8 : Shape := ⟨3, ![64, 32, 8]⟩
abbrev S_ : Shape := ⟨0, ![]⟩
abbrev S16x8 : Shape := ⟨2, ![16, 8]⟩
abbrev S16x1x8 : Shape := ⟨3, ![16, 1, 8]⟩
abbrev S481 : Shape := ⟨1, ![481]⟩
abbrev S481x1 : Shape := ⟨2, ![481, 1]⟩
abbrev S32 : Shape := ⟨1, ![32]⟩
abbrev S1x32 : Shape := ⟨2, ![1, 32]⟩
abbrev S481x32 : Shape := ⟨2, ![481, 32]⟩
abbrev S481x32x1 : Shape := ⟨3, ![481, 32, 1]⟩
abbrev S16x481x32x8 : Shape := ⟨4, ![16, 481, 32, 8]⟩
abbrev S16x481x8x32 : Shape := ⟨4, ![16, 481, 8, 32]⟩
abbrev S64 : Shape := ⟨1, ![64]⟩
abbrev S64x1x1 : Shape := ⟨3, ![64, 1, 1]⟩
abbrev S16x481x32 : Shape := ⟨3, ![16, 481, 32]⟩
abbrev S1x481x32x8 : Shape := ⟨4, ![1, 481, 32, 8]⟩
abbrev S1x481x32 : Shape := ⟨3, ![1, 481, 32]⟩
abbrev S481x32x8 : Shape := ⟨3, ![481, 32, 8]⟩
abbrev S1x32x8 : Shape := ⟨3, ![1, 32, 8]⟩
abbrev S32x8 : Shape := ⟨2, ![32, 8]⟩

abbrev nBuf : Space → Nat
  | .hbm => 97
  | .vmem => 5
  | .smem => 0
  | _ => 0

abbrev bufTy : (tb : Table) → Fin (tcTables nBuf tb) → BufTy
  | .hbm, ⟨0, _⟩ => ⟨S16x512x8, .f32⟩
  | .hbm, ⟨1, _⟩ => ⟨S64x32x8, .f32⟩
  | .hbm, ⟨2, _⟩ => ⟨S_, .f32⟩
  | .hbm, ⟨3, _⟩ => ⟨S16x8, .f32⟩
  | .hbm, ⟨4, _⟩ => ⟨S16x1x8, .f32⟩
  | .hbm, ⟨5, _⟩ => ⟨S_, .f32⟩
  | .hbm, ⟨6, _⟩ => ⟨S16x1x8, .f32⟩
  | .hbm, ⟨7, _⟩ => ⟨S16x1x8, .f32⟩
  | .hbm, ⟨8, _⟩ => ⟨S_, .i32⟩
  | .hbm, ⟨9, _⟩ => ⟨S_, .f32⟩
  | .hbm, ⟨10, _⟩ => ⟨S16x8, .f32⟩
  | .hbm, ⟨11, _⟩ => ⟨S16x1x8, .f32⟩
  | .hbm, ⟨12, _⟩ => ⟨S_, .f32⟩
  | .hbm, ⟨13, _⟩ => ⟨S16x1x8, .f32⟩
  | .hbm, ⟨14, _⟩ => ⟨S16x1x8, .f32⟩
  | .hbm, ⟨15, _⟩ => ⟨S16x512x8, .f32⟩
  | .hbm, ⟨16, _⟩ => ⟨S16x512x8, .f32⟩
  | .hbm, ⟨17, _⟩ => ⟨S16x512x8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16x8, .f32⟩
  | .hbm, ⟨23, _⟩ => ⟨S16x1x8, .f32⟩
  | .hbm, ⟨24, _⟩ => ⟨S16x1x8, .f32⟩
  | .hbm, ⟨25, _⟩ => ⟨S16x1x8, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S16x1x8, .f32⟩
  | .hbm, ⟨31, _⟩ => ⟨S16x1x8, .f32⟩
  | .hbm, ⟨32, _⟩ => ⟨S16x1x8, .f32⟩
  | .hbm, ⟨33, _⟩ => ⟨S_, .f32⟩
  | .hbm, ⟨34, _⟩ => ⟨S16x1x8, .f32⟩
  | .hbm, ⟨35, _⟩ => ⟨S16x1x8, .f32⟩
  | .hbm, ⟨36, _⟩ => ⟨S16x512x8, .f32⟩
  | .hbm, ⟨37, _⟩ => ⟨S16x512x8, .f32⟩
  | .hbm, ⟨38, _⟩ => ⟨S16x512x8, .f32⟩
  | .hbm, ⟨39, _⟩ => ⟨S16x512x8, .f32⟩
  | .hbm, ⟨40, _⟩ => ⟨S481, .i32⟩
  | .hbm, ⟨41, _⟩ => ⟨S481x1, .i32⟩
  | .hbm, ⟨42, _⟩ => ⟨S32, .i32⟩
  | .hbm, ⟨43, _⟩ => ⟨S1x32, .i32⟩
  | .hbm, ⟨44, _⟩ => ⟨S481x32, .i32⟩
  | .hbm, ⟨45, _⟩ => ⟨S481x32, .i32⟩
  | .hbm, ⟨46, _⟩ => ⟨S481x32, .i32⟩
  | .hbm, ⟨47, _⟩ => ⟨S_, .i32⟩
  | .hbm, ⟨48, _⟩ => ⟨S481x32, .i32⟩
  | .hbm, ⟨49, _⟩ => ⟨S481x32, .i1⟩
  | .hbm, ⟨50, _⟩ => ⟨S_, .i32⟩
  | .hbm, ⟨51, _⟩ => ⟨S481x32, .i32⟩
  | .hbm, ⟨52, _⟩ => ⟨S481x32, .i32⟩
  | .hbm, ⟨53, _⟩ => ⟨S481x32, .i32⟩
  | .hbm, ⟨54, _⟩ => ⟨S481x32x1, .i32⟩
  | .hbm, ⟨55, _⟩ => ⟨S16x481x32x8, .f32⟩
  | .hbm, ⟨56, _⟩ => ⟨S16x481x8x32, .f32⟩
  | .hbm, ⟨57, _⟩ => ⟨S16x481x32x8, .f32⟩
  | .hbm, ⟨58, _⟩ => ⟨S_, .f32⟩
  | .hbm, ⟨59, _⟩ => ⟨S64, .f32⟩
  | .hbm, ⟨60, _⟩ => ⟨S64x1x1, .f32⟩
  | .hbm, ⟨61, _⟩ => ⟨S_, .f32⟩
  | .hbm, ⟨62, _⟩ => ⟨S64x1x1, .f32⟩
  | .hbm, ⟨63, _⟩ => ⟨S64x1x1, .f32⟩
  | .hbm, ⟨64, _⟩ => ⟨S_, .i32⟩
  | .hbm, ⟨65, _⟩ => ⟨S_, .f32⟩
  | .hbm, ⟨66, _⟩ => ⟨S64, .f32⟩
  | .hbm, ⟨67, _⟩ => ⟨S64x1x1, .f32⟩
  | .hbm, ⟨68, _⟩ => ⟨S_, .f32⟩
  | .hbm, ⟨69, _⟩ => ⟨S64x1x1, .f32⟩
  | .hbm, ⟨70, _⟩ => ⟨S64x1x1, .f32⟩
  | .hbm, ⟨71, _⟩ => ⟨S64x32x8, .f32⟩
  | .hbm, ⟨72, _⟩ => ⟨S64x32x8, .f32⟩
  | .hbm, ⟨73, _⟩ => ⟨S64x32x8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S64, .f32⟩
  | .hbm, ⟨79, _⟩ => ⟨S64x1x1, .f32⟩
  | .hbm, ⟨80, _⟩ => ⟨S64x1x1, .f32⟩
  | .hbm, ⟨81, _⟩ => ⟨S64x1x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S64x1x1, .f32⟩
  | .hbm, ⟨87, _⟩ => ⟨S64x1x1, .f32⟩
  | .hbm, ⟨88, _⟩ => ⟨S64x1x1, .f32⟩
  | .hbm, ⟨89, _⟩ => ⟨S_, .f32⟩
  | .hbm, ⟨90, _⟩ => ⟨S64x1x1, .f32⟩
  | .hbm, ⟨91, _⟩ => ⟨S64x1x1, .f32⟩
  | .hbm, ⟨92, _⟩ => ⟨S64x32x8, .f32⟩
  | .hbm, ⟨93, _⟩ => ⟨S64x32x8, .f32⟩
  | .hbm, ⟨94, _⟩ => ⟨S64x32x8, .f32⟩
  | .hbm, ⟨95, _⟩ => ⟨S64x32x8, .f32⟩
  | .hbm, ⟨96, _⟩ => ⟨S16x481x32, .f32⟩
  | .local _ .vmem, ⟨0, _⟩ => ⟨S1x481x32x8, .f32⟩
  | .local _ .vmem, ⟨1, _⟩ => ⟨S1x481x32x8, .f32⟩
  | .local _ .vmem, ⟨2, _⟩ => ⟨S64x32x8, .f32⟩
  | .local _ .vmem, ⟨3, _⟩ => ⟨S1x481x32, .f32⟩
  | .local _ .vmem, ⟨4, _⟩ => ⟨S1x481x32, .f32⟩
  | _, _ => ⟨S16x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_cst_3 : Ref sig .tc := ⟨.hbm, 26, rfl⟩
abbrev main_call0_call0_v13 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_cst_0 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_cst_1 : Ref sig .tc := ⟨.hbm, 75, rfl⟩
abbrev main_call1_call0_v8 : Ref sig .tc := ⟨.hbm, 76, rfl⟩
abbrev main_call1_call0_cst_2 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_call0_v12 : Ref sig .tc := ⟨.hbm, 81, rfl⟩
abbrev main_call1_call0_cst_3 : Ref sig .tc := ⟨.hbm, 82, rfl⟩
abbrev main_call1_call0_v13 : Ref sig .tc := ⟨.hbm, 83, rfl⟩
abbrev main_call1_call0_cst_4 : Ref sig .tc := ⟨.hbm, 84, rfl⟩
abbrev main_call1_call0_call0_v0 : Ref sig .tc := ⟨.hbm, 85, rfl⟩
abbrev main_call1_call0_call0_v1 : Ref sig .tc := ⟨.hbm, 86, rfl⟩
abbrev main_call1_v0 : Ref sig .tc := ⟨.hbm, 87, rfl⟩
abbrev main_v31 : Ref sig .tc := ⟨.hbm, 88, rfl⟩
abbrev main_cst_7 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v8 : Index := Scalar.indexCast arg4
  let c0_7 : Index := 0#32
  let c0_8 : Index := 0#32
  ![v8.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x481x32x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x481x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S16x512x8_S16x8_d1 : S16x512x8.ReducesTo [1] S16x8
  h_S_ : 0 < S_.numel
  bcast_S16x8_S16x1x8_0_2 : S16x8.BroadcastsInDim S16x1x8 (![0, 2] : Fin 2 → Fin S16x1x8.rank)
  bcast_S_S16x1x8 : S_.BroadcastsInDim S16x1x8 (![] : Fin 0 → Fin S16x1x8.rank)
  bcast_S16x1x8_S16x512x8_0_1_2 : S16x1x8.BroadcastsInDim S16x512x8 (![0, 1, 2] : Fin 3 → Fin S16x512x8.rank)
  bcast_S481_S481x1_0 : S481.BroadcastsInDim S481x1 (![0] : Fin 1 → Fin S481x1.rank)
  bcast_S32_S1x32_1 : S32.BroadcastsInDim S1x32 (![1] : Fin 1 → Fin S1x32.rank)
  bcast_S481x1_S481x32_0_1 : S481x1.BroadcastsInDim S481x32 (![0, 1] : Fin 2 → Fin S481x32.rank)
  bcast_S1x32_S481x32_0_1 : S1x32.BroadcastsInDim S481x32 (![0, 1] : Fin 2 → Fin S481x32.rank)
  bcast_S_S481x32 : S_.BroadcastsInDim S481x32 (![] : Fin 0 → Fin S481x32.rank)
  bcast_S481x32_S481x32x1_0_1 : S481x32.BroadcastsInDim S481x32x1 (![0, 1] : Fin 2 → Fin S481x32x1.rank)
  transposes_S16x481x32x8_S16x481x8x32_0_1_3_2 : S16x481x32x8.Transposes [0, 1, 3, 2] S16x481x8x32
  shapeCasts_S16x481x8x32_S16x481x32x8 : S16x481x8x32.ShapeCasts S16x481x32x8
  reducesTo_S64x32x8_S64_d1_2 : S64x32x8.ReducesTo [1, 2] S64
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x32x8_0_1_2 : S64x1x1.BroadcastsInDim S64x32x8 (![0, 1, 2] : Fin 3 → Fin S64x32x8.rank)
  inb_S1x481x32x8_S1x481x32x8_0_0_0_0 : ∀ a, (![0, 0, 0, 0] : Fin 4 → Nat) a + S1x481x32x8.size a ≤ S1x481x32x8.size a
  h_S1x481x32x8 : 0 < S1x481x32x8.numel
  shapeCasts_S1x481x32x8_S481x32x8 : S1x481x32x8.ShapeCasts S481x32x8
  h_S1x32x8 : 0 < S1x32x8.numel
  shapeCasts_S1x32x8_S32x8 : S1x32x8.ShapeCasts S32x8
  shapeCasts_S32x8_S1x32x8 : S32x8.ShapeCasts S1x32x8
  broadcasts_S1x32x8_S481x32x8 : S1x32x8.Broadcasts S481x32x8
  reduces_S481x32x8_S481x32 : S481x32x8.Reduces [2] S481x32
  inb_S1x481x32_S1x481x32_0_0_0 : ∀ a, (![0, 0, 0] : Fin 3 → Nat) a + S1x481x32.size a ≤ S1x481x32.size a
  h_S1x481x32 : 0 < S1x481x32.numel
  shapeCasts_S1x481x32_S481x32 : S1x481x32.ShapeCasts S481x32
  shapeCasts_S481x32_S1x481x32 : S481x32.ShapeCasts S1x481x32
  gather_S16x512x8_S481x32x1_S16x481x32x8_03_1_n_n_1_2_1618_wf : GatherDims.WF S16x512x8 S481x32x1 S16x481x32x8 [0, 3] [1] [] [1] [] 2 ![16, 1, 8]
  hrank0 : 0 < grid0.rank
  k0_t1_ok : k0_t1_loop.OK
  k0_off1_inb : ∀ k0_t1 : Fin k0_t1_loop.trips, ∀ a, (k0_off1 k0_t1) a + S1x32x8.size a ≤ S64x32x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x481x32x8.size a ≤ S16x481x32x8.size a
  hwx0_0 : ∀ i : grid0.Coords, EltTy.bits .f32 = 32 ∨ (Rect.block (s := S16x481x32x8) S1x481x32x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32x8.size a ≤ S64x32x8.size a
  hwx0_1 : ∀ i : grid0.Coords, EltTy.bits .f32 = 32 ∨ (Rect.block (s := S64x32x8) S64x32x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x481x32.size a ≤ S16x481x32.size a
  hwx0_2 : ∀ i : grid0.Coords, EltTy.bits .f32 = 32 ∨ (Rect.block (s := S16x481x32) S1x481x32.size (cc0_transform_2 i) (hinb0_2 i)).WholeWords (EltTy.packing .f32)

variable [Facts₀]

def gather_S16x512x8_S481x32x1_S16x481x32x8_03_1_n_n_1_2_1618 : GatherDims S16x512x8 S481x32x1 S16x481x32x8 where
  offsetDims := [0, 3]
  collapsedSliceDims := [1]
  operandBatchingDims := []
  startIndicesBatchingDims := []
  startIndexMap := [1]
  indexVectorDim := 2
  sliceSizes := ![16, 1, 8]
  wf := gather_S16x512x8_S481x32x1_S16x481x32x8_03_1_n_n_1_2_1618_wf

abbrev win0_0 : Pipeline.Window sig grid0 :=
  Pipeline.Window.ofSpec (Memref.whole main_v26) S1x481x32x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S64x32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x481x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x8 : Shape := ⟨3, ![16, 512, 8]⟩
abbrev S64x32x8 : Shape := ⟨3, ![64, 32, 8]⟩
abbrev S_ : Shape := ⟨0, ![]⟩
abbrev S16x8 : Shape := ⟨2, ![16, 8]⟩
abbrev S16x1x8 : Shape := ⟨3, ![16, 1, 8]⟩
abbrev S481 : Shape := ⟨1, ![481]⟩
abbrev S481x1 : Shape := ⟨2, ![481, 1]⟩
abbrev S32 : Shape := ⟨1, ![32]⟩
abbrev S1x32 : Shape := ⟨2, ![1, 32]⟩
abbrev S481x32 : Shape := ⟨2, ![481, 32]⟩
abbrev S481x32x1 : Shape := ⟨3, ![481, 32, 1]⟩
abbrev S16x481x32x8 : Shape := ⟨4, ![16, 481, 32, 8]⟩
abbrev S16x481x8x32 : Shape := ⟨4, ![16, 481, 8, 32]⟩
abbrev S64 : Shape := ⟨1, ![64]⟩
abbrev S64x1x1 : Shape := ⟨3, ![64, 1, 1]⟩
abbrev S16x481x1x32x8 : Shape := ⟨5, ![16, 481, 1, 32, 8]⟩
abbrev S1x1x64x32x8 : Shape := ⟨5, ![1, 1, 64, 32, 8]⟩
abbrev S16x481x64x32x8 : Shape := ⟨5, ![16, 481, 64, 32, 8]⟩
abbrev S16x481x64x32 : Shape := ⟨4, ![16, 481, 64, 32]⟩
abbrev S16x481x32 : Shape := ⟨3, ![16, 481, 32]⟩

abbrev nBuf : Space → Nat
  | .hbm => 106
  | .vmem => 0
  | .smem => 0
  | _ => 0

abbrev bufTy : (tb : Table) → Fin (tcTables nBuf tb) → BufTy
  | .hbm, ⟨0, _⟩ => ⟨S16x512x8, .f32⟩
  | .hbm, ⟨1, _⟩ => ⟨S64x32x8, .f32⟩
  | .hbm, ⟨2, _⟩ => ⟨S_, .f32⟩
  | .hbm, ⟨3, _⟩ => ⟨S16x8, .f32⟩
  | .hbm, ⟨4, _⟩ => ⟨S16x1x8, .f32⟩
  | .hbm, ⟨5, _⟩ => ⟨S_, .f32⟩
  | .hbm, ⟨6, _⟩ => ⟨S16x1x8, .f32⟩
  | .hbm, ⟨7, _⟩ => ⟨S16x1x8, .f32⟩
  | .hbm, ⟨8, _⟩ => ⟨S_, .i32⟩
  | .hbm, ⟨9, _⟩ => ⟨S_, .f32⟩
  | .hbm, ⟨10, _⟩ => ⟨S16x8, .f32⟩
  | .hbm, ⟨11, _⟩ => ⟨S16x1x8, .f32⟩
  | .hbm, ⟨12, _⟩ => ⟨S_, .f32⟩
  | .hbm, ⟨13, _⟩ => ⟨S16x1x8, .f32⟩
  | .hbm, ⟨14, _⟩ => ⟨S16x1x8, .f32⟩
  | .hbm, ⟨15, _⟩ => ⟨S16x512x8, .f32⟩
  | .hbm, ⟨16, _⟩ => ⟨S16x512x8, .f32⟩
  | .hbm, ⟨17, _⟩ => ⟨S16x512x8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16x8, .f32⟩
  | .hbm, ⟨23, _⟩ => ⟨S16x1x8, .f32⟩
  | .hbm, ⟨24, _⟩ => ⟨S16x1x8, .f32⟩
  | .hbm, ⟨25, _⟩ => ⟨S16x1x8, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S16x1x8, .f32⟩
  | .hbm, ⟨31, _⟩ => ⟨S16x1x8, .f32⟩
  | .hbm, ⟨32, _⟩ => ⟨S16x1x8, .f32⟩
  | .hbm, ⟨33, _⟩ => ⟨S_, .f32⟩
  | .hbm, ⟨34, _⟩ => ⟨S16x1x8, .f32⟩
  | .hbm, ⟨35, _⟩ => ⟨S16x1x8, .f32⟩
  | .hbm, ⟨36, _⟩ => ⟨S16x512x8, .f32⟩
  | .hbm, ⟨37, _⟩ => ⟨S16x512x8, .f32⟩
  | .hbm, ⟨38, _⟩ => ⟨S16x512x8, .f32⟩
  | .hbm, ⟨39, _⟩ => ⟨S16x512x8, .f32⟩
  | .hbm, ⟨40, _⟩ => ⟨S481, .i32⟩
  | .hbm, ⟨41, _⟩ => ⟨S481x1, .i32⟩
  | .hbm, ⟨42, _⟩ => ⟨S32, .i32⟩
  | .hbm, ⟨43, _⟩ => ⟨S1x32, .i32⟩
  | .hbm, ⟨44, _⟩ => ⟨S481x32, .i32⟩
  | .hbm, ⟨45, _⟩ => ⟨S481x32, .i32⟩
  | .hbm, ⟨46, _⟩ => ⟨S481x32, .i32⟩
  | .hbm, ⟨47, _⟩ => ⟨S_, .i32⟩
  | .hbm, ⟨48, _⟩ => ⟨S481x32, .i32⟩
  | .hbm, ⟨49, _⟩ => ⟨S481x32, .i1⟩
  | .hbm, ⟨50, _⟩ => ⟨S_, .i32⟩
  | .hbm, ⟨51, _⟩ => ⟨S481x32, .i32⟩
  | .hbm, ⟨52, _⟩ => ⟨S481x32, .i32⟩
  | .hbm, ⟨53, _⟩ => ⟨S481x32, .i32⟩
  | .hbm, ⟨54, _⟩ => ⟨S481x32x1, .i32⟩
  | .hbm, ⟨55, _⟩ => ⟨S16x481x32x8, .f32⟩
  | .hbm, ⟨56, _⟩ => ⟨S16x481x8x32, .f32⟩
  | .hbm, ⟨57, _⟩ => ⟨S16x481x32x8, .f32⟩
  | .hbm, ⟨58, _⟩ => ⟨S_, .f32⟩
  | .hbm, ⟨59, _⟩ => ⟨S64, .f32⟩
  | .hbm, ⟨60, _⟩ => ⟨S64x1x1, .f32⟩
  | .hbm, ⟨61, _⟩ => ⟨S_, .f32⟩
  | .hbm, ⟨62, _⟩ => ⟨S64x1x1, .f32⟩
  | .hbm, ⟨63, _⟩ => ⟨S64x1x1, .f32⟩
  | .hbm, ⟨64, _⟩ => ⟨S_, .i32⟩
  | .hbm, ⟨65, _⟩ => ⟨S_, .f32⟩
  | .hbm, ⟨66, _⟩ => ⟨S64, .f32⟩
  | .hbm, ⟨67, _⟩ => ⟨S64x1x1, .f32⟩
  | .hbm, ⟨68, _⟩ => ⟨S_, .f32⟩
  | .hbm, ⟨69, _⟩ => ⟨S64x1x1, .f32⟩
  | .hbm, ⟨70, _⟩ => ⟨S64x1x1, .f32⟩
  | .hbm, ⟨71, _⟩ => ⟨S64x32x8, .f32⟩
  | .hbm, ⟨72, _⟩ => ⟨S64x32x8, .f32⟩
  | .hbm, ⟨73, _⟩ => ⟨S64x32x8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S64, .f32⟩
  | .hbm, ⟨79, _⟩ => ⟨S64x1x1, .f32⟩
  | .hbm, ⟨80, _⟩ => ⟨S64x1x1, .f32⟩
  | .hbm, ⟨81, _⟩ => ⟨S64x1x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S64x1x1, .f32⟩
  | .hbm, ⟨87, _⟩ => ⟨S64x1x1, .f32⟩
  | .hbm, ⟨88, _⟩ => ⟨S64x1x1, .f32⟩
  | .hbm, ⟨89, _⟩ => ⟨S_, .f32⟩
  | .hbm, ⟨90, _⟩ => ⟨S64x1x1, .f32⟩
  | .hbm, ⟨91, _⟩ => ⟨S64x1x1, .f32⟩
  | .hbm, ⟨92, _⟩ => ⟨S64x32x8, .f32⟩
  | .hbm, ⟨93, _⟩ => ⟨S64x32x8, .f32⟩
  | .hbm, ⟨94, _⟩ => ⟨S64x32x8, .f32⟩
  | .hbm, ⟨95, _⟩ => ⟨S64x32x8, .f32⟩
  | .hbm, ⟨96, _⟩ => ⟨S16x481x1x32x8, .f32⟩
  | .hbm, ⟨97, _⟩ => ⟨S1x1x64x32x8, .f32⟩
  | .hbm, ⟨98, _⟩ => ⟨S16x481x64x32x8, .f32⟩
  | .hbm, ⟨99, _⟩ => ⟨S16x481x64x32x8, .f32⟩
  | .hbm, ⟨100, _⟩ => ⟨S16x481x64x32x8, .f32⟩
  | .hbm, ⟨101, _⟩ => ⟨S16x481x64x32x8, .f32⟩
  | .hbm, ⟨102, _⟩ => ⟨S_, .f32⟩
  | .hbm, ⟨103, _⟩ => ⟨S16x481x64x32, .f32⟩
  | .hbm, ⟨104, _⟩ => ⟨S_, .f32⟩
  | .hbm, ⟨105, _⟩ => ⟨S16x481x32, .f32⟩
  | _, _ => ⟨S16x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_cst_3 : Ref sig .tc := ⟨.hbm, 26, rfl⟩
abbrev main_call0_call0_v13 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_cst_0 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_cst_1 : Ref sig .tc := ⟨.hbm, 75, rfl⟩
abbrev main_call1_call0_v8 : Ref sig .tc := ⟨.hbm, 76, rfl⟩
abbrev main_call1_call0_cst_2 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_call0_v12 : Ref sig .tc := ⟨.hbm, 81, rfl⟩
abbrev main_call1_call0_cst_3 : Ref sig .tc := ⟨.hbm, 82, rfl⟩
abbrev main_call1_call0_v13 : Ref sig .tc := ⟨.hbm, 83, rfl⟩
abbrev main_call1_call0_cst_4 : Ref sig .tc := ⟨.hbm, 84, rfl⟩
abbrev main_call1_call0_call0_v0 : Ref sig .tc := ⟨.hbm, 85, rfl⟩
abbrev main_call1_call0_call0_v1 : Ref sig .tc := ⟨.hbm, 86, rfl⟩
abbrev main_call1_v0 : Ref sig .tc := ⟨.hbm, 87, rfl⟩
abbrev main_v31 : Ref sig .tc := ⟨.hbm, 88, rfl⟩
abbrev main_cst_7 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_8 : Ref sig .tc := ⟨.hbm, 102, rfl⟩
abbrev main_v44 : Ref sig .tc := ⟨.hbm, 103, rfl⟩
abbrev main_cst_9 : Ref sig .tc := ⟨.hbm, 104, rfl⟩
abbrev main_v45 : Ref sig .tc := ⟨.hbm, 105, rfl⟩

abbrev nD : Nat := 1
abbrev τ : Topo := Topo.v7x

variable {F : FTy → Type} [FloatOps F]

class Facts₀ : Prop where
  reducesTo_S16x512x8_S16x8_d1 : S16x512x8.ReducesTo [1] S16x8
  h_S_ : 0 < S_.numel
  bcast_S16x8_S16x1x8_0_2 : S16x8.BroadcastsInDim S16x1x8 (![0, 2] : Fin 2 → Fin S16x1x8.rank)
  bcast_S_S16x1x8 : S_.BroadcastsInDim S16x1x8 (![] : Fin 0 → Fin S16x1x8.rank)
  bcast_S16x1x8_S16x512x8_0_1_2 : S16x1x8.BroadcastsInDim S16x512x8 (![0, 1, 2] : Fin 3 → Fin S16x512x8.rank)
  bcast_S481_S481x1_0 : S481.BroadcastsInDim S481x1 (![0] : Fin 1 → Fin S481x1.rank)
  bcast_S32_S1x32_1 : S32.BroadcastsInDim S1x32 (![1] : Fin 1 → Fin S1x32.rank)
  bcast_S481x1_S481x32_0_1 : S481x1.BroadcastsInDim S481x32 (![0, 1] : Fin 2 → Fin S481x32.rank)
  bcast_S1x32_S481x32_0_1 : S1x32.BroadcastsInDim S481x32 (![0, 1] : Fin 2 → Fin S481x32.rank)
  bcast_S_S481x32 : S_.BroadcastsInDim S481x32 (![] : Fin 0 → Fin S481x32.rank)
  bcast_S481x32_S481x32x1_0_1 : S481x32.BroadcastsInDim S481x32x1 (![0, 1] : Fin 2 → Fin S481x32x1.rank)
  transposes_S16x481x32x8_S16x481x8x32_0_1_3_2 : S16x481x32x8.Transposes [0, 1, 3, 2] S16x481x8x32
  shapeCasts_S16x481x8x32_S16x481x32x8 : S16x481x8x32.ShapeCasts S16x481x32x8
  reducesTo_S64x32x8_S64_d1_2 : S64x32x8.ReducesTo [1, 2] S64
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x32x8_0_1_2 : S64x1x1.BroadcastsInDim S64x32x8 (![0, 1, 2] : Fin 3 → Fin S64x32x8.rank)
  bcast_S16x481x32x8_S16x481x1x32x8_0_1_3_4 : S16x481x32x8.BroadcastsInDim S16x481x1x32x8 (![0, 1, 3, 4] : Fin 4 → Fin S16x481x1x32x8.rank)
  bcast_S64x32x8_S1x1x64x32x8_2_3_4 : S64x32x8.BroadcastsInDim S1x1x64x32x8 (![2, 3, 4] : Fin 3 → Fin S1x1x64x32x8.rank)
  bcast_S16x481x1x32x8_S16x481x64x32x8_0_1_2_3_4 : S16x481x1x32x8.BroadcastsInDim S16x481x64x32x8 (![0, 1, 2, 3, 4] : Fin 5 → Fin S16x481x64x32x8.rank)
  bcast_S1x1x64x32x8_S16x481x64x32x8_0_1_2_3_4 : S1x1x64x32x8.BroadcastsInDim S16x481x64x32x8 (![0, 1, 2, 3, 4] : Fin 5 → Fin S16x481x64x32x8.rank)
  reducesTo_S16x481x64x32x8_S16x481x64x32_d4 : S16x481x64x32x8.ReducesTo [4] S16x481x64x32
  reducesTo_S16x481x64x32_S16x481x32_d2 : S16x481x64x32.ReducesTo [2] S16x481x32
  gather_S16x512x8_S481x32x1_S16x481x32x8_03_1_n_n_1_2_1618_wf : GatherDims.WF S16x512x8 S481x32x1 S16x481x32x8 [0, 3] [1] [] [1] [] 2 ![16, 1, 8]

variable [Facts₀]

def gather_S16x512x8_S481x32x1_S16x481x32x8_03_1_n_n_1_2_1618 : GatherDims S16x512x8 S481x32x1 S16x481x32x8 where
  offsetDims := [0, 3]
  collapsedSliceDims := [1]
  operandBatchingDims := []
  startIndicesBatchingDims := []
  startIndexMap := [1]
  indexVectorDim := 2
  sliceSizes := ![16, 1, 8]
  wf := gather_S16x512x8_S481x32x1_S16x481x32x8_03_1_n_n_1_2_1618_wf

class Facts : Prop extends Facts₀ where

variable [Facts]
-- ==== Proof.Spec.lean ====
/-
  What both programs compute, as ONE function of the two prepared arrays.

  With `P : [16, 481, 32, 8]` the window array and `K : [64, 32, 8]` the z-scored shapelet table, the result at `(b, t, j)` is the
  least, over the 64 shapelets `s`, of the squared distance summed over the 8 channels,
      d(b, t, j, s) = Σ_c (P[b, t, j, c] - K[s, j, c])²,
  the minimum started from `+∞`. Sums and minima are taken in the extended reals, where `+` and `min` are commutative and
  associative, so the order in which either program folds them does not matter and no finiteness is needed.
-/
import proofs.«181568_j14310831030969_2_alg».proof.Proof.Gen.ReferenceIdeal
import Idealize.ShloMosaic.PureOps.Ideal.Laws
import Idealize.ShloMosaic.Lib.ValueIdx

noncomputable section

namespace Cert.DistMin

open Idealize.ShloMosaic Idealize.ShloMosaic.ValueIdx Cert.ReferenceIdeal

/-- The squared distance between window `(b, t)`'s row `j` and shapelet `s`'s row `j`, summed over the 8 channels. -/
def dist (P : FVec Ideal S16x481x32x8 .f32) (K : FVec Ideal S64x32x8 .f32) (b : Fin 16) (t : Fin 481) (j : Fin 32) (s : Fin 64) : EReal :=
  ∑ c : Fin 8, (P (ix4 b t j c) - K (ix3 s j c)) * (P (ix4 b t j c) - K (ix3 s j c))

/-- The least squared distance over the 64 shapelets, from `+∞`. -/
def leastDist (P : FVec Ideal S16x481x32x8 .f32) (K : FVec Ideal S64x32x8 .f32) (b : Fin 16) (t : Fin 481) (j : Fin 32) : EReal :=
  Finset.univ.fold min (Ideal.ofBits .f32 0x7F800000#32) (fun s : Fin 64 => dist P K b t j s)

/-- The result array: `leastDist` at every `(b, t, j)`. -/
def G (P : FVec Ideal S16x481x32x8 .f32) (K : FVec Ideal S64x32x8 .f32) : FVec Ideal S16x481x32 .f32 :=
  fun i => leastDist P K (i 0) (i 1) (i 2)

theorem G_apply (P : FVec Ideal S16x481x32x8 .f32) (K : FVec Ideal S64x32x8 .f32) (b : Fin 16) (t : Fin 481) (j : Fin 32) :
    G P K (ix3 b t j) = leastDist P K b t j := rfl

variable {F : FTy → Type} [FloatOps F]

/-- The reference's last ten operations on the two prepared arrays: both broadcast to `[16, 481, 64, 32, 8]`, subtracted, squared,
    summed over the channel axis from `0`, and the minimum over the shapelet axis taken from `+∞`. -/
def refTail (P : FVec F S16x481x32x8 .f32) (K : FVec F S64x32x8 .f32) : FVec F S16x481x32 .f32 :=
  have v38 : FVec F S16x481x1x32x8 .f32 := broadcastInDim S16x481x1x32x8 ![0, 1, 3, 4] Gen.bcast_S16x481x32x8_S16x481x1x32x8_0_1_3_4 P
  have v39 : FVec F S1x1x64x32x8 .f32 := broadcastInDim S1x1x64x32x8 ![2, 3, 4] Gen.bcast_S64x32x8_S1x1x64x32x8_2_3_4 K
  have v40 : FVec F S16x481x64x32x8 .f32 := broadcastInDim S16x481x64x32x8 ![0, 1, 2, 3, 4] Gen.bcast_S16x481x1x32x8_S16x481x64x32x8_0_1_2_3_4 v38
  have v41 : FVec F S16x481x64x32x8 .f32 := broadcastInDim S16x481x64x32x8 ![0, 1, 2, 3, 4] Gen.bcast_S1x1x64x32x8_S16x481x64x32x8_0_1_2_3_4 v39
  have v42 : FVec F S16x481x64x32x8 .f32 := subf v40 v41
  have v43 : FVec F S16x481x64x32x8 .f32 := mulf v42 v42
  have cst_8 : FVec F S_ .f32 := constant S_ .f32 0x00000000#32
  have v44 : FVec F S16x481x64x32 .f32 := Host.reduceAdd v43 cst_8 Gen.reducesTo_S16x481x64x32x8_S16x481x64x32_d4 Gen.h_S_
  have cst_9 : FVec F S_ .f32 := constant S_ .f32 0x7F800000#32
  Host.reduce FloatOps.minimumf v44 cst_9 Gen.reducesTo_S16x481x64x32_S16x481x32_d2 Gen.h_S_

end Cert.DistMin

end
-- ==== Proof.HostChain.lean ====
/-
  The host computations the two programs share, each as ONE function of its argument array.

  Both programs start from the same two preparations. From the series `x : [16, 512, 8]` (batch, time, channel): the mean and the
  population variance over time per (batch, channel), the z-score `(x - mean) / (sqrt var + eps)`, then every window of 32 consecutive
  time steps, 481 of them, gathered as `[16, 481, 32, 8]`, its last two axes transposed and the result re-read row-major as
  `[16, 481, 32, 8]` again (`patches`). From the shapelet table `k : [64, 32, 8]`: the z-score of each shapelet over its 256 entries
  (`shapelets`). What follows in either program only ever reads these two arrays, so nothing below looks inside them: they are
  carried as opaque functions, and all that matters is that the two programs apply literally the same operations.
-/
import proofs.«181568_j14310831030969_2_alg».proof.Proof.Gen.ReferenceIdeal

noncomputable section

namespace Cert.DistMin

open Idealize.ShloMosaic Cert.ReferenceIdeal

variable {F : FTy → Type} [FloatOps F]

/-- The window array: the z-scored series (mean and population variance over the 512 time steps, per batch and channel; the variance
    guarded by `where (512 - 0 > 0)` as jnp's `var` writes it), gathered at the start indices `t + j` (`t < 481`, `j < 32`; a negative
    index would be wrapped by 512, none is), transposed on its last two axes and re-read row-major. -/
def patches (x : FVec F S16x512x8 .f32) : FVec F S16x481x32x8 .f32 :=
  have cst : FVec F S_ .f32 := constant S_ .f32 0x00000000#32
  have v0 : FVec F S16x8 .f32 := Host.reduceAdd x cst Gen.reducesTo_S16x512x8_S16x8_d1 Gen.h_S_
  have v1 : FVec F S16x1x8 .f32 := broadcastInDim S16x1x8 ![0, 2] Gen.bcast_S16x8_S16x1x8_0_2 v0
  have cst_0 : FVec F S_ .f32 := constant S_ .f32 0x44000000#32
  have v2 : FVec F S16x1x8 .f32 := broadcastInDim S16x1x8 ![] Gen.bcast_S_S16x1x8 cst_0
  have v3 : FVec F S16x1x8 .f32 := Host.divf v1 v2
  have c : IVec S_ 32 := constantI S_ 32 0#32
  -- the variance, as jnp's `var` computes it
  have a_cst : FVec F S_ .f32 := constant S_ .f32 0x00000000#32
  have a_v0 : FVec F S16x8 .f32 := Host.reduceAdd x a_cst Gen.reducesTo_S16x512x8_S16x8_d1 Gen.h_S_
  have a_v1 : FVec F S16x1x8 .f32 := broadcastInDim S16x1x8 ![0, 2] Gen.bcast_S16x8_S16x1x8_0_2 a_v0
  have a_cst_0 : FVec F S_ .f32 := constant S_ .f32 0x44000000#32
  have a_v2 : FVec F S16x1x8 .f32 := broadcastInDim S16x1x8 ![] Gen.bcast_S_S16x1x8 a_cst_0
  have a_v3 : FVec F S16x1x8 .f32 := Host.divf a_v1 a_v2
  have a_v4 : FVec F S16x512x8 .f32 := broadcastInDim S16x512x8 ![0, 1, 2] Gen.bcast_S16x1x8_S16x512x8_0_1_2 a_v3
  have a_v5 : FVec F S16x512x8 .f32 := subf x a_v4
  have a_v6 : FVec F S16x512x8 .f32 := mulf a_v5 a_v5
  have a_v7 : FVec F S_ .f32 := sitofp .f32 c
  have a_cst_1 : FVec F S_ .f32 := constant S_ .f32 0x44000000#32
  have a_v8 : FVec F S_ .f32 := subf a_cst_1 a_v7
  have a_cst_2 : FVec F S_ .f32 := constant S_ .f32 0x00000000#32
  have a_v9 : FVec F S16x8 .f32 := Host.reduceAdd a_v6 a_cst_2 Gen.reducesTo_S16x512x8_S16x8_d1 Gen.h_S_
  have a_v10 : FVec F S16x1x8 .f32 := broadcastInDim S16x1x8 ![0, 2] Gen.bcast_S16x8_S16x1x8_0_2 a_v9
  have a_v11 : FVec F S16x1x8 .f32 := broadcastInDim S16x1x8 ![] Gen.bcast_S_S16x1x8 a_v8
  have a_v12 : FVec F S16x1x8 .f32 := Host.divf a_v10 a_v11
  have a_cst_3 : FVec F S_ .f32 := constant S_ .f32 0x00000000#32
  have a_v13 : IVec S_ 1 := cmpf .ogt a_v8 a_cst_3
  have a_cst_4 : FVec F S_ .f32 := constant S_ .f32 0x7FC00000#32
  have w_v0 : FVec F S_ .f32 := id a_cst_4
  have w_v1 : FVec F S16x1x8 .f32 := broadcastInDim S16x1x8 ![] Gen.bcast_S_S16x1x8 w_v0
  have w_v2 : FVec F S16x1x8 .f32 := select (broadcastInDim S16x1x8 ![] Gen.bcast_S_S16x1x8 a_v13) a_v12 w_v1
  have v4 : FVec F S16x1x8 .f32 := Host.sqrt w_v2
  have cst_1 : FVec F S_ .f32 := constant S_ .f32 0x322BCC77#32
  have v5 : FVec F S16x1x8 .f32 := broadcastInDim S16x1x8 ![] Gen.bcast_S_S16x1x8 cst_1
  have v6 : FVec F S16x1x8 .f32 := addf v4 v5
  have v7 : FVec F S16x512x8 .f32 := broadcastInDim S16x512x8 ![0, 1, 2] Gen.bcast_S16x1x8_S16x512x8_0_1_2 v3
  have v8 : FVec F S16x512x8 .f32 := subf x v7
  have v9 : FVec F S16x512x8 .f32 := broadcastInDim S16x512x8 ![0, 1, 2] Gen.bcast_S16x1x8_S16x512x8_0_1_2 v6
  have v10 : FVec F S16x512x8 .f32 := Host.divf v8 v9
  -- the start indices t + j
  have v11 : IVec S481 32 := iotaInDim S481 32 0
  have v12 : IVec S481x1 32 := broadcastInDim S481x1 ![0] Gen.bcast_S481_S481x1_0 v11
  have v13 : IVec S32 32 := iotaInDim S32 32 0
  have v14 : IVec S1x32 32 := broadcastInDim S1x32 ![1] Gen.bcast_S32_S1x32_1 v13
  have v15 : IVec S481x32 32 := broadcastInDim S481x32 ![0, 1] Gen.bcast_S481x1_S481x32_0_1 v12
  have v16 : IVec S481x32 32 := broadcastInDim S481x32 ![0, 1] Gen.bcast_S1x32_S481x32_0_1 v14
  have v17 : IVec S481x32 32 := addi v15 v16
  have c_2 : IVec S_ 32 := constantI S_ 32 0#32
  have v18 : IVec S481x32 32 := broadcastInDim S481x32 ![] Gen.bcast_S_S481x32 c_2
  have v19 : IVec S481x32 1 := cmpi .slt v17 v18
  have c_3 : IVec S_ 32 := constantI S_ 32 512#32
  have v20 : IVec S481x32 32 := broadcastInDim S481x32 ![] Gen.bcast_S_S481x32 c_3
  have v21 : IVec S481x32 32 := addi v17 v20
  have v22 : IVec S481x32 32 := select v19 v21 v17
  have v23 : IVec S481x32x1 32 := broadcastInDim S481x32x1 ![0, 1] Gen.bcast_S481x32_S481x32x1_0_1 v22
  have v24 : FVec F S16x481x32x8 .f32 := Host.gather gather_S16x512x8_S481x32x1_S16x481x32x8_03_1_n_n_1_2_1618 v10 v23
  have v25 : FVec F S16x481x8x32 .f32 := transpose S16x481x8x32 [0, 1, 3, 2] v24 Gen.transposes_S16x481x32x8_S16x481x8x32_0_1_3_2
  shapeCast S16x481x32x8 v25 Gen.shapeCasts_S16x481x8x32_S16x481x32x8

/-- The shapelet table, each shapelet z-scored over its 32 × 8 entries (mean, population variance guarded as above, `+ eps`). -/
def shapelets (k : FVec F S64x32x8 .f32) : FVec F S64x32x8 .f32 :=
  have cst_4 : FVec F S_ .f32 := constant S_ .f32 0x00000000#32
  have v27 : FVec F S64 .f32 := Host.reduceAdd k cst_4 Gen.reducesTo_S64x32x8_S64_d1_2 Gen.h_S_
  have v28 : FVec F S64x1x1 .f32 := broadcastInDim S64x1x1 ![0] Gen.bcast_S64_S64x1x1_0 v27
  have cst_5 : FVec F S_ .f32 := constant S_ .f32 0x43800000#32
  have v29 : FVec F S64x1x1 .f32 := broadcastInDim S64x1x1 ![] Gen.bcast_S_S64x1x1 cst_5
  have v30 : FVec F S64x1x1 .f32 := Host.divf v28 v29
  have c_6 : IVec S_ 32 := constantI S_ 32 0#32
  have a_cst : FVec F S_ .f32 := constant S_ .f32 0x00000000#32
  have a_v0 : FVec F S64 .f32 := Host.reduceAdd k a_cst Gen.reducesTo_S64x32x8_S64_d1_2 Gen.h_S_
  have a_v1 : FVec F S64x1x1 .f32 := broadcastInDim S64x1x1 ![0] Gen.bcast_S64_S64x1x1_0 a_v0
  have a_cst_0 : FVec F S_ .f32 := constant S_ .f32 0x43800000#32
  have a_v2 : FVec F S64x1x1 .f32 := broadcastInDim S64x1x1 ![] Gen.bcast_S_S64x1x1 a_cst_0
  have a_v3 : FVec F S64x1x1 .f32 := Host.divf a_v1 a_v2
  have a_v4 : FVec F S64x32x8 .f32 := broadcastInDim S64x32x8 ![0, 1, 2] Gen.bcast_S64x1x1_S64x32x8_0_1_2 a_v3
  have a_v5 : FVec F S64x32x8 .f32 := subf k a_v4
  have a_v6 : FVec F S64x32x8 .f32 := mulf a_v5 a_v5
  have a_v7 : FVec F S_ .f32 := sitofp .f32 c_6
  have a_cst_1 : FVec F S_ .f32 := constant S_ .f32 0x43800000#32
  have a_v8 : FVec F S_ .f32 := subf a_cst_1 a_v7
  have a_cst_2 : FVec F S_ .f32 := constant S_ .f32 0x00000000#32
  have a_v9 : FVec F S64 .f32 := Host.reduceAdd a_v6 a_cst_2 Gen.reducesTo_S64x32x8_S64_d1_2 Gen.h_S_
  have a_v10 : FVec F S64x1x1 .f32 := broadcastInDim S64x1x1 ![0] Gen.bcast_S64_S64x1x1_0 a_v9
  have a_v11 : FVec F S64x1x1 .f32 := broadcastInDim S64x1x1 ![] Gen.bcast_S_S64x1x1 a_v8
  have a_v12 : FVec F S64x1x1 .f32 := Host.divf a_v10 a_v11
  have a_cst_3 : FVec F S_ .f32 := constant S_ .f32 0x00000000#32
  have a_v13 : IVec S_ 1 := cmpf .ogt a_v8 a_cst_3
  have a_cst_4 : FVec F S_ .f32 := constant S_ .f32 0x7FC00000#32
  have w_v0 : FVec F S_ .f32 := id a_cst_4
  have w_v1 : FVec F S64x1x1 .f32 := broadcastInDim S64x1x1 ![] Gen.bcast_S_S64x1x1 w_v0
  have w_v2 : FVec F S64x1x1 .f32 := select (broadcastInDim S64x1x1 ![] Gen.bcast_S_S64x1x1 a_v13) a_v12 w_v1
  have v31 : FVec F S64x1x1 .f32 := Host.sqrt w_v2
  have cst_7 : FVec F S_ .f32 := constant S_ .f32 0x322BCC77#32
  have v32 : FVec F S64x1x1 .f32 := broadcastInDim S64x1x1 ![] Gen.bcast_S_S64x1x1 cst_7
  have v33 : FVec F S64x1x1 .f32 := addf v31 v32
  have v34 : FVec F S64x32x8 .f32 := broadcastInDim S64x32x8 ![0, 1, 2] Gen.bcast_S64x1x1_S64x32x8_0_1_2 v30
  have v35 : FVec F S64x32x8 .f32 := subf k v34
  have v36 : FVec F S64x32x8 .f32 := broadcastInDim S64x32x8 ![0, 1, 2] Gen.bcast_S64x1x1_S64x32x8_0_1_2 v33
  Host.divf v35 v36

end Cert.DistMin

end
-- ==== Proof.KernelBody.lean ====
/-
  The kernel's body, read as values. At grid point `b` the body holds window block `x0 : [1, 481, 32, 8]` (batch `b` of the window
  array) and the whole shapelet table `x1 : [64, 32, 8]`. It carries a running minimum `acc : [481, 32]`, started at `+∞`, through 64
  trips; trip `s` loads row `s` of the table and replaces `acc[t, j]` by `min acc[t, j] (Σ_c (x0[0, t, j, c] - x1[s, j, c])²)`.
  So after `k` trips `acc[t, j]` is the minimum, from `+∞`, over the shapelets `s < k` of that squared distance, and the block stored
  at the end is the minimum over all 64.
-/
import proofs.«181568_j14310831030969_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx Idealize.SL.Sem

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The loop makes 64 trips. -/
theorem trips_eq : k0_t1_loop.trips = 64 := by decide

/-- One trip replaces the carried value by the payload of the block, the carried value and the table row the trip loads. -/
theorem trip_eq (𝒱 : Variants) (c : Dev nD) (bd : Option 𝒱.V) (i : grid0.Coords) (arg1 : Memref sig .tc .vmem S1x481x32x8 .f32) (harg1 : arg1.IsWhole) (arg2 : Memref sig .tc .vmem S64x32x8 .f32) (harg2 : arg2.IsWhole) (arg3 : Memref sig .tc .vmem S1x481x32 .f32) (harg3 : arg3.IsWhole) (v0 : Vec F S1x481x32x8 .f32) (X : BufTy.Contents (Elt F) arg2.view.ty) (k : Fin k0_t1_loop.trips) (acc : FVec F S481x32 .f32) :
    tripR_k0_t1 (F := F) 𝒱 c bd i arg1 harg1 arg2 harg2 arg3 harg3 v0 X k acc
      = k0_pay2 v0 acc (View.readAt (Elt F) arg2.view (Rect.unit (s := S64x32x8) (k0_off1 k) S1x32x8.size (k0_off1_inb k)).toLoadRect X) := by
  unfold tripR_k0_t1 trip_k0_t1
  rfl

/-- What the body leaves in the output block: the carried value after the last trip, with its unit axis put back. -/
theorem out_eq (c : Dev nD) (i : grid0.Coords) (arg1 : Memref sig .tc .vmem S1x481x32x8 .f32) (harg1 : arg1.IsWhole) (arg2 : Memref sig .tc .vmem S64x32x8 .f32) (harg2 : arg2.IsWhole) (arg3 : Memref sig .tc .vmem S1x481x32 .f32) (harg3 : arg3.IsWhole)
    (x0 : Vec F S1x481x32x8 .f32) (x1 : Vec F S64x32x8 .f32) :
    out0_A_2 c i arg1 harg1 arg2 harg2 arg3 harg3 x0 x1
      = k0_pay3 (st_k0_t1 Variants.none c none i arg1 harg1 arg2 harg2 arg3 harg3 x0 (harg2.unread x1) k0_pay1 k0_t1_loop.trips) := by
  unfold out0_A_2
  rw [View.read_writes_eq_canon _ _ _ (cover0_A_2 c i arg1 harg1 arg2 harg2 arg3 harg3 x0 x1)]
  unfold kernelRun0_A
  dsimp only
  rw [View.canon_unit_zero hz3]
  simp only [View.readAt_eq_ld, harg1.read_unread, View.ld_unit_zero (S := S1x481x32x8) hz4]

/-! ## The trip's payload at an index, at the extended reals -/

/-- Over (t, j), with channel c inserted on axis 2, sits (t, j, c). -/
theorem liftChan (t : Fin 481) (j : Fin 32) (c : Fin 8) :
    (reduces_S481x32x8_S481x32 : S481x32x8.Reduces [2] S481x32).lift (ix2 t j) c = ix3 t j c := by
  funext a
  match a with
  | ⟨0, _⟩ => rfl
  | ⟨1, _⟩ => rfl
  | ⟨2, _⟩ => rfl

/-- The block with its unit batch axis dropped reads the block at (0, t, j, c). -/
theorem block_apply (v0 : Vec Ideal S1x481x32x8 .f32) (t : Fin 481) (j : Fin 32) (c : Fin 8) :
    shapeCast S481x32x8 v0 shapeCasts_S1x481x32x8_S481x32x8 (ix3 t j c) = v0 (ix4 (0 : Fin 1) t j c) := by
  refine (shapeCast_dropUnit_apply _ v0 _ (ix3 t j c)).trans (congrArg v0 ?_)
  funext a
  match a with
  | ⟨0, _⟩ => rfl
  | ⟨1, _⟩ => rfl
  | ⟨2, _⟩ => rfl
  | ⟨3, _⟩ => rfl

/-- The table row, its unit axis dropped and put back and then copied along the 481 windows, reads the row at (0, j, c). -/
theorem row_apply (v9 : Vec Ideal S1x32x8 .f32) (t : Fin 481) (j : Fin 32) (c : Fin 8) :
    broadcastTo S481x32x8 (shapeCast S1x32x8 (shapeCast S32x8 v9 shapeCasts_S1x32x8_S32x8) shapeCasts_S32x8_S1x32x8) broadcasts_S1x32x8_S481x32x8 (ix3 t j c)
      = v9 (ix3 (0 : Fin 1) j c) := by
  rw [shapeCast_shapeCast]
  refine broadcastTo_apply v9 _ (ix3 t j c) (ix3 (0 : Fin 1) j c) (fun a => ?_)
  match a with
  | ⟨0, _⟩ => rfl
  | ⟨1, _⟩ => rfl
  | ⟨2, _⟩ => rfl

/-- One trip at (t, j): the carried minimum against the squared distance, summed over the channels, between the block's row and the
    loaded table row. -/
theorem pay2_apply (v0 : Vec Ideal S1x481x32x8 .f32) (acc : FVec Ideal S481x32 .f32) (v9 : Vec Ideal S1x32x8 .f32) (t : Fin 481) (j : Fin 32) :
    k0_pay2 v0 acc v9 (ix2 t j)
      = min (acc (ix2 t j)) (∑ c : Fin 8, (v0 (ix4 (0 : Fin 1) t j c) - v9 (ix3 (0 : Fin 1) j c)) * (v0 (ix4 (0 : Fin 1) t j c) - v9 (ix3 (0 : Fin 1) j c))) := by
  unfold k0_pay2
  refine congrArg (min (acc (ix2 t j))) ?_
  refine (Ideal.multiReduction_add_single _ _ _ _ _ (ix2 t j)).trans ?_
  show (∑ c : Fin 8, _) = _
  refine Finset.sum_congr rfl fun c _ => ?_
  rw [liftChan, mulf_apply, subf_apply, block_apply, row_apply]

/-! ## The carried minimum after `k` trips -/

/-- The squared distance, summed over the channels, between row (t, j) of the block and row j of shapelet s. -/
def dblk (x0 : Vec Ideal S1x481x32x8 .f32) (x1 : Vec Ideal S64x32x8 .f32) (t : Fin 481) (j : Fin 32) (s : Fin 64) : EReal :=
  ∑ c : Fin 8, (x0 (ix4 (0 : Fin 1) t j c) - x1 (ix3 s j c)) * (x0 (ix4 (0 : Fin 1) t j c) - x1 (ix3 s j c))

/-- The row that trip `k` loads, from the table held whole in its buffer, is row `k` of the table. -/
theorem load_apply (arg2 : Memref sig .tc .vmem S64x32x8 .f32) (harg2 : arg2.IsWhole) (x1 : Vec Ideal S64x32x8 .f32)
    (k : Fin k0_t1_loop.trips) (hk : k.val < 64) (j : Fin 32) (c : Fin 8) :
    View.readAt (Elt Ideal) arg2.view (Rect.unit (s := S64x32x8) (k0_off1 k) S1x32x8.size (k0_off1_inb k)).toLoadRect (harg2.unread x1)
        (ix3 (0 : Fin 1) j c)
      = x1 (ix3 (⟨k.val, hk⟩ : Fin 64) j c) := by
  rw [View.readAt_eq_ld, harg2.read_unread]
  show x1 ((Rect.unit (s := S64x32x8) (k0_off1 k) S1x32x8.size (k0_off1_inb k)).emb (ix3 (0 : Fin 1) j c)) = _
  refine congrArg x1 (funext fun a => Fin.ext ?_)
  have e := k0_off1_eq k
  match a with
  | ⟨0, _⟩ => show k0_off1 k 0 + 1 * 0 = k.val; rw [e]; rfl
  | ⟨1, _⟩ => show k0_off1 k 1 + 1 * j.val = j.val; rw [e]; show 0 + 1 * j.val = j.val; omega
  | ⟨2, _⟩ => show k0_off1 k 2 + 1 * c.val = c.val; rw [e]; show 0 + 1 * c.val = c.val; omega

/-- Before trip `k` the carried value at (t, j) is the minimum, from `+∞`, over the shapelets below `k` of the squared distance. -/
theorem st_apply (c : Dev nD) (i : grid0.Coords) (arg1 : Memref sig .tc .vmem S1x481x32x8 .f32) (harg1 : arg1.IsWhole) (arg2 : Memref sig .tc .vmem S64x32x8 .f32) (harg2 : arg2.IsWhole) (arg3 : Memref sig .tc .vmem S1x481x32 .f32) (harg3 : arg3.IsWhole)
    (x0 : Vec Ideal S1x481x32x8 .f32) (x1 : Vec Ideal S64x32x8 .f32) (t : Fin 481) (j : Fin 32) :
    ∀ k : Nat, k ≤ 64 →
      st_k0_t1 (F := Ideal) Variants.none c none i arg1 harg1 arg2 harg2 arg3 harg3 x0 (harg2.unread x1) k0_pay1 k (ix2 t j)
        = (Finset.univ.filter fun s : Fin 64 => s.val < k).fold min (Ideal.ofBits .f32 0x7F800000#32) (dblk x0 x1 t j)
  | 0, _ => by
    rw [Finset.filter_false_of_mem (fun s _ => Nat.not_lt_zero _), Finset.fold_empty]
    rfl
  | k + 1, hk => by
    have hk64 : k < 64 := hk
    have hkt : k < k0_t1_loop.trips := by rw [trips_eq]; exact hk64
    have hins : (Finset.univ.filter fun s : Fin 64 => s.val < k + 1) = insert (⟨k, hk64⟩ : Fin 64) (Finset.univ.filter fun s : Fin 64 => s.val < k) := by
      ext s
      simp only [Finset.mem_filter, Finset.mem_univ, true_and, Finset.mem_insert, Fin.ext_iff]
      omega
    have hnot : (⟨k, hk64⟩ : Fin 64) ∉ (Finset.univ.filter fun s : Fin 64 => s.val < k) := by
      simp only [Finset.mem_filter, Finset.mem_univ, true_and, Nat.lt_irrefl, not_false_eq_true]
    rw [hins, Finset.fold_insert hnot, ← st_apply c i arg1 harg1 arg2 harg2 arg3 harg3 x0 x1 t j k (Nat.le_of_lt hk64)]
    refine ((congrFun (st_k0_t1_succ (F := Ideal) Variants.none c none i arg1 harg1 arg2 harg2 arg3 harg3 x0 (harg2.unread x1) k0_pay1 ⟨k, hkt⟩) (ix2 t j)).trans ?_)
    rw [trip_eq, pay2_apply, min_comm]
    refine congrArg (fun z => min z _) ?_
    unfold dblk
    refine Finset.sum_congr rfl fun c' _ => ?_
    rw [load_apply arg2 harg2 x1 ⟨k, hkt⟩ hk64 j c']

/-- What the body leaves in the output block, at (0, t, j): the least squared distance over the 64 shapelets, from `+∞`. -/
theorem out_apply (c : Dev nD) (i : grid0.Coords) (arg1 : Memref sig .tc .vmem S1x481x32x8 .f32) (harg1 : arg1.IsWhole) (arg2 : Memref sig .tc .vmem S64x32x8 .f32) (harg2 : arg2.IsWhole) (arg3 : Memref sig .tc .vmem S1x481x32 .f32) (harg3 : arg3.IsWhole)
    (x0 : Vec Ideal S1x481x32x8 .f32) (x1 : Vec Ideal S64x32x8 .f32) (t : Fin 481) (j : Fin 32) :
    out0_A_2 (F := Ideal) c i arg1 harg1 arg2 harg2 arg3 harg3 x0 x1 (ix3 (0 : Fin 1) t j)
      = Finset.univ.fold min (Ideal.ofBits .f32 0x7F800000#32) (dblk x0 x1 t j) := by
  rw [out_eq]
  unfold k0_pay3
  refine (shapeCast_addUnit_apply _ _ _ (ix3 (0 : Fin 1) t j)).trans ?_
  have hidx : (fun a : Fin 2 => (ix3 (0 : Fin 1) t j) a.succ) = ix2 t j := by
    funext a
    match a with
    | ⟨0, _⟩ => rfl
    | ⟨1, _⟩ => rfl
  rw [hidx, trips_eq, st_apply c i arg1 harg1 arg2 harg2 arg3 harg3 x0 x1 t j 64 (Nat.le_refl 64),
    Finset.filter_true_of_mem (fun s _ => s.isLt)]

end Cert.KernelIdeal.Body

end
-- ==== Proof.KernelHost.lean ====
/-
  The two arrays the kernel's region reads. Before the region the kernel's program applies to its arguments exactly the operations
  that define `patches` and `shapelets`; so when the region is entered the first window's array is `patches` of the series and the
  second window's array is `shapelets` of the table. Nothing is computed here: the operations are only put side by side.
-/
import proofs.«181568_j14310831030969_2_alg».proof.Proof.Gen.KernelIdeal.Frame
import proofs.«181568_j14310831030969_2_alg».proof.Proof.HostChain
import Idealize.ShloMosaic.Lib.StableHlo.Run

noncomputable section

namespace Cert.KernelIdeal.Body

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.reduceAdd Host.gather Host.divf Host.sqrt in
set_option maxRecDepth 16384 in
set_option maxHeartbeats 1600000 in
/-- The first window's array at region entry is the window array of the series. -/
theorem V_patches (c : Dev nD) :
    (V m c main_v26 : S16x481x32x8.Idx → Elt F .f32) = Cert.DistMin.patches (m ((c : Thread nD τ).loc main_arg0)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

attribute [local irreducible] Host.reduce Host.reduceAdd Host.gather Host.divf Host.sqrt in
set_option maxRecDepth 16384 in
set_option maxHeartbeats 1600000 in
/-- The second window's array at region entry is the z-scored shapelet table. -/
theorem V_shapelets (c : Dev nD) :
    (V m c main_v37 : S64x32x8.Idx → Elt F .f32) = Cert.DistMin.shapelets (m ((c : Thread nD τ).loc main_arg1)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.Body

end
-- ==== Proof.KernelBlocks.lean ====
/-
  From blocks to the array. Grid point `b` (of 16) reads batch `b` of the window array and the whole shapelet table, and writes batch `b`
  of the result. What it writes is, at (0, t, j), the least squared distance over the 64 shapelets (the body, read as values); and
  batch `b` of the window array at (0, t, j, c) is the array at (b, t, j, c). So point `b`'s block is batch `b` of the specification's
  array `G` of the two arrays the region finds; the 16 blocks cover the result, which therefore ends holding `G` of them — and those
  two arrays are `patches` of the series and `shapelets` of the table.
-/
import proofs.«181568_j14310831030969_2_alg».proof.Proof.Gen.KernelIdeal.Value
import proofs.«181568_j14310831030969_2_alg».proof.Proof.KernelBody
import proofs.«181568_j14310831030969_2_alg».proof.Proof.KernelHost
import proofs.«181568_j14310831030969_2_alg».proof.Proof.Spec

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat)
open Cert.DistMin (G G_apply leastDist dist patches shapelets)

variable (m : (ℓ : Loc nD τ sig) → Buf (Elt Ideal) ℓ) (ρ : Dev nD → PrngReg)

/-- The printed index maps over the grid: the window block and the result block of point `t` are batch `t`, the table's block is the
    whole table. -/
theorem idx_facts : ∀ t : Fin cfg0.N, win0_0.index t (0 : Fin 4) = t.val ∧ win0_0.index t (1 : Fin 4) = 0 ∧ win0_0.index t (2 : Fin 4) = 0
    ∧ win0_0.index t (3 : Fin 4) = 0 ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem lt16 (t : Fin cfg0.N) : t.val < 16 := by
  have h := t.isLt
  have hN : cfg0.N = 16 := N_0
  omega

/-- Point `t`'s window block at (0, t', j, c) is the window array at (t, t', j, c). -/
theorem iblk0_apply (c : Dev nD) (t : Fin cfg0.N) (t' : Fin 481) (j : Fin 32) (c' : Fin 8) :
    (iblk m c 0 t : Vec Ideal S1x481x32x8 .f32) (ix4 (0 : Fin 1) t' j c')
      = (V m c main_v26 : S16x481x32x8.Idx → Elt Ideal .f32) (ix4 (⟨t.val, lt16 t⟩ : Fin 16) t' j c') := by
  obtain ⟨e0, e1, e2, e3, -⟩ := idx_facts t
  unfold iblk
  rw [View.read_apply]
  show V m c main_v26 _ = V m c main_v26 _
  refine congrArg (V m c main_v26) (funext fun a => Fin.ext ?_)
  match a with
  | ⟨0, _⟩ => show win0_0.index t (0 : Fin 4) * 1 + 1 * 0 = t.val; omega
  | ⟨1, _⟩ => show win0_0.index t (1 : Fin 4) * 481 + 1 * t'.val = t'.val; omega
  | ⟨2, _⟩ => show win0_0.index t (2 : Fin 4) * 32 + 1 * j.val = j.val; omega
  | ⟨3, _⟩ => show win0_0.index t (3 : Fin 4) * 8 + 1 * c'.val = c'.val; omega

/-- Point `t`'s table block is the table. -/
theorem iblk1_apply (c : Dev nD) (t : Fin cfg0.N) (s : Fin 64) (j : Fin 32) (c' : Fin 8) :
    (iblk m c 1 t : Vec Ideal S64x32x8 .f32) (ix3 s j c') = (V m c main_v37 : S64x32x8.Idx → Elt Ideal .f32) (ix3 s j c') := by
  obtain ⟨-, -, -, -, e0, e1, e2, -⟩ := idx_facts t
  unfold iblk
  rw [View.read_apply]
  show V m c main_v37 _ = V m c main_v37 _
  refine congrArg (V m c main_v37) (funext fun a => Fin.ext ?_)
  match a with
  | ⟨0, _⟩ => show win0_1.index t (0 : Fin 3) * 64 + 1 * s.val = s.val; omega
  | ⟨1, _⟩ => show win0_1.index t (1 : Fin 3) * 32 + 1 * j.val = j.val; omega
  | ⟨2, _⟩ => show win0_1.index t (2 : Fin 3) * 8 + 1 * c'.val = c'.val; omega

/-- WHAT POINT `t` WRITES BACK is batch `t` of `G` of the two arrays the region finds. -/
theorem flushed_eq (c : Dev nD) (t : Fin cfg0.N) :
    (dats m 0 c).flushed 2 t
      = ((cfg0.win 2).blk t).view.read (Elt Ideal) (G (V m c main_v26) (V m c main_v37)) := by
  obtain ⟨-, -, -, -, -, -, -, e0, e1, e2⟩ := idx_facts t
  rw [Cert.KernelIdeal.Value.flushed2_A]
  funext y
  obtain ⟨z, t', j, rfl⟩ : ∃ (z : Fin 1) (t' : Fin 481) (j : Fin 32), y = ix3 z t' j := ⟨y 0, y 1, y 2, eq_ix3 y⟩
  obtain rfl : z = 0 := Subsingleton.elim _ _
  rw [View.read_apply]
  show out0_A_2 c (grid0.coords t) (ms0_0 t) (hs0_0 t) (ms0_1 t) (hs0_1 t) (ms0_2 t) (hs0_2 t) (iblk m c 0 t) (iblk m c 1 t) (ix3 (0 : Fin 1) t' j) = _
  rw [out_apply]
  have hemb : ((cfg0.win 2).blk t).view.emb (ix3 (0 : Fin 1) t' j) = ix3 (⟨t.val, lt16 t⟩ : Fin 16) t' j := by
    funext a
    apply Fin.ext
    match a with
    | ⟨0, _⟩ => show win0_2.index t (0 : Fin 3) * 1 + 1 * 0 = t.val; omega
    | ⟨1, _⟩ => show win0_2.index t (1 : Fin 3) * 481 + 1 * t'.val = t'.val; omega
    | ⟨2, _⟩ => show win0_2.index t (2 : Fin 3) * 32 + 1 * j.val = j.val; omega
  rw [hemb, G_apply]
  unfold leastDist
  refine Finset.fold_congr fun s _ => ?_
  unfold dblk Cert.DistMin.dist
  refine Finset.sum_congr rfl fun c' _ => ?_
  rw [iblk0_apply, iblk1_apply]

/-- An index of the result is in point `t`'s block iff each coordinate is in the block's range on its axis. -/
theorem mem_blk (t : Fin cfg0.N) (i : S16x481x32.Idx) :
    i ∈ ((cfg0.win 2).blk t).view.set ↔ ∀ a : Fin 3, win0_2.index t a * S1x481x32.size a ≤ (i a).val ∧ (i a).val < win0_2.index t a * S1x481x32.size a + S1x481x32.size a := by
  show i ∈ ((View.whole main_v38).slice (win0_2.rect t)).set ↔ _
  rw [View.set_slice_whole, Rect.mem_set_unit]
  exact Iff.rfl

/-- Every index of the result is in the block of the point of its batch. -/
theorem cover (i : S16x481x32.Idx) : ∃ t : Fin cfg0.N, (cfg0.win 2).flush t = true ∧ i ∈ ((cfg0.win 2).blk t).view.set := by
  have h0 : (i 0).val < 16 := (i 0).isLt
  have h1 : (i 1).val < 481 := (i 1).isLt
  have h2 : (i 2).val < 32 := (i 2).isLt
  have hN : cfg0.N = 16 := N_0
  obtain ⟨t, ht⟩ : ∃ t : Fin cfg0.N, t.val = (i 0).val := ⟨⟨(i 0).val, by omega⟩, rfl⟩
  obtain ⟨-, -, -, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 481 ≤ (i 1).val ∧ (i 1).val < win0_2.index t (1 : Fin 3) * 481 + 481; omega
  | ⟨2, _⟩ => show win0_2.index t (2 : Fin 3) * 32 ≤ (i 2).val ∧ (i 2).val < win0_2.index t (2 : Fin 3) * 32 + 32; omega

/-- THE RESULT ARRAY after the run: the specification's array of `patches` of the series and `shapelets` of the table. -/
theorem final (c : Dev nD) :
    (dats m 0 c).arrAt 2 cfg0.N = G (patches (m ((c : Thread nD τ).loc main_arg0))) (shapelets (m ((c : Thread nD τ).loc main_arg1))) := by
  rw [← V_patches m c, ← V_shapelets m c]
  exact (dats m 0 c).arrAt_eq_of_cover 2 (G (V m c main_v26) (V m c main_v37)) (fun t _ => flushed_eq m c t) cover

/-- The kernel's run, read: the result at the specification's array of the prepared arguments, the arguments unchanged. -/
theorem run : θ_run defs (onTc (τ := τ) (main (F := Ideal))) ⟨m, fun _ => 0, ρ⟩ fun r => ∀ c : Dev nD,
      r.2.mem ((c : Thread nD τ).loc main_v38) = G (patches (m ((c : Thread nD τ).loc main_arg0))) (shapelets (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Body

end
-- ==== Proof.RefRun.lean ====
/-
  The reference program's run, as one straight line.

  The reference's @main calls two outlined functions (the standard deviation of the series and of the shapelet table), each of which
  calls a variance function, which in turn calls a `where`. Executing a call is executing the callee's body on the operands, so the
  whole program is ONE list of 104 array operations in order: @main's own, with each callee's operations listed at its call site over
  that call's buffers. From any memory every weakly fair execution of the program terminates, and each buffer ends holding what the
  list's operations, folded in order over the launch contents, leave in it.
-/
import proofs.«181568_j14310831030969_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 104 operations in order, the calls unfolded: seven of @main (the series' mean over time), the twenty-four of the first
    standard-deviation call (the variance's twenty, the `where`'s three, the square root), thirty-two of @main (the z-score, the window
    start indices, the gather, the transposition and re-reading; the shapelets' mean), the twenty-four of the second call, seven of
    @main (the shapelets' z-score), and the last ten: the two broadcasts of each prepared array, the difference, its square, the sum
    over channels and the minimum over shapelets. -/
abbrev ops : List (HloOp τ sig (Elt F)) :=
  [ StableHlo.nullary main_cst (constant S_ .f32 0x00000000#32),
    StableHlo.binary main_arg0 main_cst main_v0 ((fun x v => Host.reduceAdd x v reducesTo_S16x512x8_S16x8_d1 h_S_) : (⟨S16x512x8, .f32⟩ : BufTy).Contents (Elt F) → (⟨S_, .f32⟩ : BufTy).Contents (Elt F) → (⟨S16x8, .f32⟩ : BufTy).Contents (Elt F)),
    StableHlo.unary main_v0 main_v1 (broadcastInDim S16x1x8 ![0, 2] bcast_S16x8_S16x1x8_0_2 : (⟨S16x8, .f32⟩ : BufTy).Contents (Elt F) → (⟨S16x1x8, .f32⟩ : BufTy).Contents (Elt F)),
    StableHlo.nullary main_cst_0 (constant S_ .f32 0x44000000#32),
    StableHlo.unary main_cst_0 main_v2 (broadcastInDim S16x1x8 ![] bcast_S_S16x1x8 : (⟨S_, .f32⟩ : BufTy).Contents (Elt F) → (⟨S16x1x8, .f32⟩ : BufTy).Contents (Elt F)),
    StableHlo.binary main_v1 main_v2 main_v3 (Host.divf : (⟨S16x1x8, .f32⟩ : BufTy).Contents (Elt F) → (⟨S16x1x8, .f32⟩ : BufTy).Contents (Elt F) → (⟨S16x1x8, .f32⟩ : BufTy).Contents (Elt F)),
    StableHlo.nullary main_c (constantI S_ 32 0#32),
    StableHlo.TRef.nullary (.of main_call0_call0_cst : StableHlo.TRef sig ⟨S_, .f32⟩) (constant S_ .f32 0x00000000#32),
    StableHlo.TRef.binary (.of main_arg0 : StableHlo.TRef sig ⟨S16x512x8, .f32⟩) (.of main_call0_call0_cst : StableHlo.TRef sig ⟨S_, .f32⟩) (.of main_call0_call0_v0 : StableHlo.TRef sig ⟨S16x8, .f32⟩) (fun x v => Host.reduceAdd x v reducesTo_S16x512x8_S16x8_d1 h_S_),
    StableHlo.TRef.unary (.of main_call0_call0_v0 : StableHlo.TRef sig ⟨S16x8, .f32⟩) (.of main_call0_call0_v1 : StableHlo.TRef sig ⟨S16x1x8, .f32⟩) (broadcastInDim S16x1x8 ![0, 2] bcast_S16x8_S16x1x8_0_2),
    StableHlo.TRef.nullary (.of main_call0_call0_cst_0 : StableHlo.TRef sig ⟨S_, .f32⟩) (constant S_ .f32 0x44000000#32),
    StableHlo.TRef.unary (.of main_call0_call0_cst_0 : StableHlo.TRef sig ⟨S_, .f32⟩) (.of main_call0_call0_v2 : StableHlo.TRef sig ⟨S16x1x8, .f32⟩) (broadcastInDim S16x1x8 ![] bcast_S_S16x1x8),
    StableHlo.TRef.binary (.of main_call0_call0_v1 : StableHlo.TRef sig ⟨S16x1x8, .f32⟩) (.of main_call0_call0_v2 : StableHlo.TRef sig ⟨S16x1x8, .f32⟩) (.of main_call0_call0_v3 : StableHlo.TRef sig ⟨S16x1x8, .f32⟩) Host.divf,
    StableHlo.TRef.unary (.of main_call0_call0_v3 : StableHlo.TRef sig ⟨S16x1x8, .f32⟩) (.of main_call0_call0_v4 : StableHlo.TRef sig ⟨S16x512x8, .f32⟩) (broadcastInDim S16x512x8 ![0, 1, 2] bcast_S16x1x8_S16x512x8_0_1_2),
    StableHlo.TRef.binary (.of main_arg0 : StableHlo.TRef sig ⟨S16x512x8, .f32⟩) (.of main_call0_call0_v4 : StableHlo.TRef sig ⟨S16x512x8, .f32⟩) (.of main_call0_call0_v5 : StableHlo.TRef sig ⟨S16x512x8, .f32⟩) subf,
    StableHlo.TRef.binary (.of main_call0_call0_v5 : StableHlo.TRef sig ⟨S16x512x8, .f32⟩) (.of main_call0_call0_v5 : StableHlo.TRef sig ⟨S16x512x8, .f32⟩) (.of main_call0_call0_v6 : StableHlo.TRef sig ⟨S16x512x8, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x44000000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S16x512x8, .f32⟩) (.of main_call0_call0_cst_2 : StableHlo.TRef sig ⟨S_, .f32⟩) (.of main_call0_call0_v9 : StableHlo.TRef sig ⟨S16x8, .f32⟩) (fun x v => Host.reduceAdd x v reducesTo_S16x512x8_S16x8_d1 h_S_),
    StableHlo.TRef.unary (.of main_call0_call0_v9 : StableHlo.TRef sig ⟨S16x8, .f32⟩) (.of main_call0_call0_v10 : StableHlo.TRef sig ⟨S16x1x8, .f32⟩) (broadcastInDim S16x1x8 ![0, 2] bcast_S16x8_S16x1x8_0_2),
    StableHlo.TRef.unary (.of main_call0_call0_v8 : StableHlo.TRef sig ⟨S_, .f32⟩) (.of main_call0_call0_v11 : StableHlo.TRef sig ⟨S16x1x8, .f32⟩) (broadcastInDim S16x1x8 ![] bcast_S_S16x1x8),
    StableHlo.TRef.binary (.of main_call0_call0_v10 : StableHlo.TRef sig ⟨S16x1x8, .f32⟩) (.of main_call0_call0_v11 : StableHlo.TRef sig ⟨S16x1x8, .f32⟩) (.of main_call0_call0_v12 : StableHlo.TRef sig ⟨S16x1x8, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v13 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.unary (.of main_call0_call0_call0_v0 : StableHlo.TRef sig ⟨S_, .f32⟩) (.of main_call0_call0_call0_v1 : StableHlo.TRef sig ⟨S16x1x8, .f32⟩) (broadcastInDim S16x1x8 ![] bcast_S_S16x1x8),
    StableHlo.TRef.ternary (.of main_call0_call0_v13 : StableHlo.TRef sig ⟨S_, .i1⟩) (.of main_call0_call0_v12 : StableHlo.TRef sig ⟨S16x1x8, .f32⟩) (.of main_call0_call0_call0_v1 : StableHlo.TRef sig ⟨S16x1x8, .f32⟩) (.of main_call0_v0 : StableHlo.TRef sig ⟨S16x1x8, .f32⟩) (fun p a b => select (broadcastInDim S16x1x8 ![] bcast_S_S16x1x8 p) a b),
    StableHlo.TRef.unary main_call0_call0.call0.v2 (.of main_v4 : StableHlo.TRef sig ⟨S16x1x8, .f32⟩) Host.sqrt,
    StableHlo.nullary main_cst_1 (constant S_ .f32 0x322BCC77#32),
    StableHlo.unary main_cst_1 main_v5 (broadcastInDim S16x1x8 ![] bcast_S_S16x1x8 : (⟨S_, .f32⟩ : BufTy).Contents (Elt F) → (⟨S16x1x8, .f32⟩ : BufTy).Contents (Elt F)),
    StableHlo.binary main_v4 main_v5 main_v6 (addf : (⟨S16x1x8, .f32⟩ : BufTy).Contents (Elt F) → (⟨S16x1x8, .f32⟩ : BufTy).Contents (Elt F) → (⟨S16x1x8, .f32⟩ : BufTy).Contents (Elt F)),
    StableHlo.unary main_v3 main_v7 (broadcastInDim S16x512x8 ![0, 1, 2] bcast_S16x1x8_S16x512x8_0_1_2 : (⟨S16x1x8, .f32⟩ : BufTy).Contents (Elt F) → (⟨S16x512x8, .f32⟩ : BufTy).Contents (Elt F)),
    StableHlo.binary main_arg0 main_v7 main_v8 (subf : (⟨S16x512x8, .f32⟩ : BufTy).Contents (Elt F) → (⟨S16x512x8, .f32⟩ : BufTy).Contents (Elt F) → (⟨S16x512x8, .f32⟩ : BufTy).Contents (Elt F)),
    StableHlo.unary main_v6 main_v9 (broadcastInDim S16x512x8 ![0, 1, 2] bcast_S16x1x8_S16x512x8_0_1_2 : (⟨S16x1x8, .f32⟩ : BufTy).Contents (Elt F) → (⟨S16x512x8, .f32⟩ : BufTy).Contents (Elt F)),
    StableHlo.binary main_v8 main_v9 main_v10 (Host.divf : (⟨S16x512x8, .f32⟩ : BufTy).Contents (Elt F) → (⟨S16x512x8, .f32⟩ : BufTy).Contents (Elt F) → (⟨S16x512x8, .f32⟩ : BufTy).Contents (Elt F)),
    StableHlo.nullary main_v11 (iotaInDim S481 32 0),
    StableHlo.unary main_v11 main_v12 (broadcastInDim S481x1 ![0] bcast_S481_S481x1_0 : (⟨S481, .i32⟩ : BufTy).Contents (Elt F) → (⟨S481x1, .i32⟩ : BufTy).Contents (Elt F)),
    StableHlo.nullary main_v13 (iotaInDim S32 32 0),
    StableHlo.unary main_v13 main_v14 (broadcastInDim S1x32 ![1] bcast_S32_S1x32_1 : (⟨S32, .i32⟩ : BufTy).Contents (Elt F) → (⟨S1x32, .i32⟩ : BufTy).Contents (Elt F)),
    StableHlo.unary main_v12 main_v15 (broadcastInDim S481x32 ![0, 1] bcast_S481x1_S481x32_0_1 : (⟨S481x1, .i32⟩ : BufTy).Contents (Elt F) → (⟨S481x32, .i32⟩ : BufTy).Contents (Elt F)),
    StableHlo.unary main_v14 main_v16 (broadcastInDim S481x32 ![0, 1] bcast_S1x32_S481x32_0_1 : (⟨S1x32, .i32⟩ : BufTy).Contents (Elt F) → (⟨S481x32, .i32⟩ : BufTy).Contents (Elt F)),
    StableHlo.binary main_v15 main_v16 main_v17 (addi : (⟨S481x32, .i32⟩ : BufTy).Contents (Elt F) → (⟨S481x32, .i32⟩ : BufTy).Contents (Elt F) → (⟨S481x32, .i32⟩ : BufTy).Contents (Elt F)),
    StableHlo.nullary main_c_2 (constantI S_ 32 0#32),
    StableHlo.unary main_c_2 main_v18 (broadcastInDim S481x32 ![] bcast_S_S481x32 : (⟨S_, .i32⟩ : BufTy).Contents (Elt F) → (⟨S481x32, .i32⟩ : BufTy).Contents (Elt F)),
    StableHlo.binary main_v17 main_v18 main_v19 (cmpi .slt : (⟨S481x32, .i32⟩ : BufTy).Contents (Elt F) → (⟨S481x32, .i32⟩ : BufTy).Contents (Elt F) → (⟨S481x32, .i1⟩ : BufTy).Contents (Elt F)),
    StableHlo.nullary main_c_3 (constantI S_ 32 512#32),
    StableHlo.unary main_c_3 main_v20 (broadcastInDim S481x32 ![] bcast_S_S481x32 : (⟨S_, .i32⟩ : BufTy).Contents (Elt F) → (⟨S481x32, .i32⟩ : BufTy).Contents (Elt F)),
    StableHlo.binary main_v17 main_v20 main_v21 (addi : (⟨S481x32, .i32⟩ : BufTy).Contents (Elt F) → (⟨S481x32, .i32⟩ : BufTy).Contents (Elt F) → (⟨S481x32, .i32⟩ : BufTy).Contents (Elt F)),
    StableHlo.ternary main_v19 main_v21 main_v17 main_v22 (select : (⟨S481x32, .i1⟩ : BufTy).Contents (Elt F) → (⟨S481x32, .i32⟩ : BufTy).Contents (Elt F) → (⟨S481x32, .i32⟩ : BufTy).Contents (Elt F) → (⟨S481x32, .i32⟩ : BufTy).Contents (Elt F)),
    StableHlo.unary main_v22 main_v23 (broadcastInDim S481x32x1 ![0, 1] bcast_S481x32_S481x32x1_0_1 : (⟨S481x32, .i32⟩ : BufTy).Contents (Elt F) → (⟨S481x32x1, .i32⟩ : BufTy).Contents (Elt F)),
    StableHlo.binary main_v10 main_v23 main_v24 ((fun x i => Host.gather gather_S16x512x8_S481x32x1_S16x481x32x8_03_1_n_n_1_2_1618 x i) : (⟨S16x512x8, .f32⟩ : BufTy).Contents (Elt F) → (⟨S481x32x1, .i32⟩ : BufTy).Contents (Elt F) → (⟨S16x481x32x8, .f32⟩ : BufTy).Contents (Elt F)),
    StableHlo.unary main_v24 main_v25 ((transpose S16x481x8x32 [0, 1, 3, 2] · transposes_S16x481x32x8_S16x481x8x32_0_1_3_2) : (⟨S16x481x32x8, .f32⟩ : BufTy).Contents (Elt F) → (⟨S16x481x8x32, .f32⟩ : BufTy).Contents (Elt F)),
    StableHlo.reshape main_v25 main_v26 rfl shapeCasts_S16x481x8x32_S16x481x32x8,
    StableHlo.nullary main_cst_4 (constant S_ .f32 0x00000000#32),
    StableHlo.binary main_arg1 main_cst_4 main_v27 ((fun x v => Host.reduceAdd x v reducesTo_S64x32x8_S64_d1_2 h_S_) : (⟨S64x32x8, .f32⟩ : BufTy).Contents (Elt F) → (⟨S_, .f32⟩ : BufTy).Contents (Elt F) → (⟨S64, .f32⟩ : BufTy).Contents (Elt F)),
    StableHlo.unary main_v27 main_v28 (broadcastInDim S64x1x1 ![0] bcast_S64_S64x1x1_0 : (⟨S64, .f32⟩ : BufTy).Contents (Elt F) → (⟨S64x1x1, .f32⟩ : BufTy).Contents (Elt F)),
    StableHlo.nullary main_cst_5 (constant S_ .f32 0x43800000#32),
    StableHlo.unary main_cst_5 main_v29 (broadcastInDim S64x1x1 ![] bcast_S_S64x1x1 : (⟨S_, .f32⟩ : BufTy).Contents (Elt F) → (⟨S64x1x1, .f32⟩ : BufTy).Contents (Elt F)),
    StableHlo.binary main_v28 main_v29 main_v30 (Host.divf : (⟨S64x1x1, .f32⟩ : BufTy).Contents (Elt F) → (⟨S64x1x1, .f32⟩ : BufTy).Contents (Elt F) → (⟨S64x1x1, .f32⟩ : BufTy).Contents (Elt F)),
    StableHlo.nullary main_c_6 (constantI S_ 32 0#32),
    StableHlo.TRef.nullary (.of main_call1_call0_cst : StableHlo.TRef sig ⟨S_, .f32⟩) (constant S_ .f32 0x00000000#32),
    StableHlo.TRef.binary (.of main_arg1 : StableHlo.TRef sig ⟨S64x32x8, .f32⟩) (.of main_call1_call0_cst : StableHlo.TRef sig ⟨S_, .f32⟩) (.of main_call1_call0_v0 : StableHlo.TRef sig ⟨S64, .f32⟩) (fun x v => Host.reduceAdd x v reducesTo_S64x32x8_S64_d1_2 h_S_),
    StableHlo.TRef.unary (.of main_call1_call0_v0 : StableHlo.TRef sig ⟨S64, .f32⟩) (.of main_call1_call0_v1 : StableHlo.TRef sig ⟨S64x1x1, .f32⟩) (broadcastInDim S64x1x1 ![0] bcast_S64_S64x1x1_0),
    StableHlo.TRef.nullary (.of main_call1_call0_cst_0 : StableHlo.TRef sig ⟨S_, .f32⟩) (constant S_ .f32 0x43800000#32),
    StableHlo.TRef.unary (.of main_call1_call0_cst_0 : StableHlo.TRef sig ⟨S_, .f32⟩) (.of main_call1_call0_v2 : StableHlo.TRef sig ⟨S64x1x1, .f32⟩) (broadcastInDim S64x1x1 ![] bcast_S_S64x1x1),
    StableHlo.TRef.binary (.of main_call1_call0_v1 : StableHlo.TRef sig ⟨S64x1x1, .f32⟩) (.of main_call1_call0_v2 : StableHlo.TRef sig ⟨S64x1x1, .f32⟩) (.of main_call1_call0_v3 : StableHlo.TRef sig ⟨S64x1x1, .f32⟩) Host.divf,
    StableHlo.TRef.unary (.of main_call1_call0_v3 : StableHlo.TRef sig ⟨S64x1x1, .f32⟩) (.of main_call1_call0_v4 : StableHlo.TRef sig ⟨S64x32x8, .f32⟩) (broadcastInDim S64x32x8 ![0, 1, 2] bcast_S64x1x1_S64x32x8_0_1_2),
    StableHlo.TRef.binary (.of main_arg1 : StableHlo.TRef sig ⟨S64x32x8, .f32⟩) (.of main_call1_call0_v4 : StableHlo.TRef sig ⟨S64x32x8, .f32⟩) (.of main_call1_call0_v5 : StableHlo.TRef sig ⟨S64x32x8, .f32⟩) subf,
    StableHlo.TRef.binary (.of main_call1_call0_v5 : StableHlo.TRef sig ⟨S64x32x8, .f32⟩) (.of main_call1_call0_v5 : StableHlo.TRef sig ⟨S64x32x8, .f32⟩) (.of main_call1_call0_v6 : StableHlo.TRef sig ⟨S64x32x8, .f32⟩) mulf,
    StableHlo.TRef.unary (.of main_c_6 : StableHlo.TRef sig ⟨S_, .i32⟩) (.of main_call1_call0_v7 : StableHlo.TRef sig ⟨S_, .f32⟩) (sitofp .f32),
    StableHlo.TRef.nullary (.of main_call1_call0_cst_1 : StableHlo.TRef sig ⟨S_, .f32⟩) (constant S_ .f32 0x43800000#32),
    StableHlo.TRef.binary (.of main_call1_call0_cst_1 : StableHlo.TRef sig ⟨S_, .f32⟩) (.of main_call1_call0_v7 : StableHlo.TRef sig ⟨S_, .f32⟩) (.of main_call1_call0_v8 : StableHlo.TRef sig ⟨S_, .f32⟩) subf,
    StableHlo.TRef.nullary (.of main_call1_call0_cst_2 : StableHlo.TRef sig ⟨S_, .f32⟩) (constant S_ .f32 0x00000000#32),
    StableHlo.TRef.binary (.of main_call1_call0_v6 : StableHlo.TRef sig ⟨S64x32x8, .f32⟩) (.of main_call1_call0_cst_2 : StableHlo.TRef sig ⟨S_, .f32⟩) (.of main_call1_call0_v9 : StableHlo.TRef sig ⟨S64, .f32⟩) (fun x v => Host.reduceAdd x v reducesTo_S64x32x8_S64_d1_2 h_S_),
    StableHlo.TRef.unary (.of main_call1_call0_v9 : StableHlo.TRef sig ⟨S64, .f32⟩) (.of main_call1_call0_v10 : StableHlo.TRef sig ⟨S64x1x1, .f32⟩) (broadcastInDim S64x1x1 ![0] bcast_S64_S64x1x1_0),
    StableHlo.TRef.unary (.of main_call1_call0_v8 : StableHlo.TRef sig ⟨S_, .f32⟩) (.of main_call1_call0_v11 : StableHlo.TRef sig ⟨S64x1x1, .f32⟩) (broadcastInDim S64x1x1 ![] bcast_S_S64x1x1),
    StableHlo.TRef.binary (.of main_call1_call0_v10 : StableHlo.TRef sig ⟨S64x1x1, .f32⟩) (.of main_call1_call0_v11 : StableHlo.TRef sig ⟨S64x1x1, .f32⟩) (.of main_call1_call0_v12 : StableHlo.TRef sig ⟨S64x1x1, .f32⟩) Host.divf,
    StableHlo.TRef.nullary (.of main_call1_call0_cst_3 : StableHlo.TRef sig ⟨S_, .f32⟩) (constant S_ .f32 0x00000000#32),
    StableHlo.TRef.binary (.of main_call1_call0_v8 : StableHlo.TRef sig ⟨S_, .f32⟩) (.of main_call1_call0_cst_3 : StableHlo.TRef sig ⟨S_, .f32⟩) (.of main_call1_call0_v13 : StableHlo.TRef sig ⟨S_, .i1⟩) (cmpf .ogt),
    StableHlo.TRef.nullary (.of main_call1_call0_cst_4 : StableHlo.TRef sig ⟨S_, .f32⟩) (constant S_ .f32 0x7FC00000#32),
    StableHlo.TRef.unary (.of main_call1_call0_cst_4 : StableHlo.TRef sig ⟨S_, .f32⟩) (.of main_call1_call0_call0_v0 : StableHlo.TRef sig ⟨S_, .f32⟩) id,
    StableHlo.TRef.unary (.of main_call1_call0_call0_v0 : StableHlo.TRef sig ⟨S_, .f32⟩) (.of main_call1_call0_call0_v1 : StableHlo.TRef sig ⟨S64x1x1, .f32⟩) (broadcastInDim S64x1x1 ![] bcast_S_S64x1x1),
    StableHlo.TRef.ternary (.of main_call1_call0_v13 : StableHlo.TRef sig ⟨S_, .i1⟩) (.of main_call1_call0_v12 : StableHlo.TRef sig ⟨S64x1x1, .f32⟩) (.of main_call1_call0_call0_v1 : StableHlo.TRef sig ⟨S64x1x1, .f32⟩) (.of main_call1_v0 : StableHlo.TRef sig ⟨S64x1x1, .f32⟩) (fun p a b => select (broadcastInDim S64x1x1 ![] bcast_S_S64x1x1 p) a b),
    StableHlo.TRef.unary main_call1_call0.call0.v2 (.of main_v31 : StableHlo.TRef sig ⟨S64x1x1, .f32⟩) Host.sqrt,
    StableHlo.nullary main_cst_7 (constant S_ .f32 0x322BCC77#32),
    StableHlo.unary main_cst_7 main_v32 (broadcastInDim S64x1x1 ![] bcast_S_S64x1x1 : (⟨S_, .f32⟩ : BufTy).Contents (Elt F) → (⟨S64x1x1, .f32⟩ : BufTy).Contents (Elt F)),
    StableHlo.binary main_v31 main_v32 main_v33 (addf : (⟨S64x1x1, .f32⟩ : BufTy).Contents (Elt F) → (⟨S64x1x1, .f32⟩ : BufTy).Contents (Elt F) → (⟨S64x1x1, .f32⟩ : BufTy).Contents (Elt F)),
    StableHlo.unary main_v30 main_v34 (broadcastInDim S64x32x8 ![0, 1, 2] bcast_S64x1x1_S64x32x8_0_1_2 : (⟨S64x1x1, .f32⟩ : BufTy).Contents (Elt F) → (⟨S64x32x8, .f32⟩ : BufTy).Contents (Elt F)),
    StableHlo.binary main_arg1 main_v34 main_v35 (subf : (⟨S64x32x8, .f32⟩ : BufTy).Contents (Elt F) → (⟨S64x32x8, .f32⟩ : BufTy).Contents (Elt F) → (⟨S64x32x8, .f32⟩ : BufTy).Contents (Elt F)),
    StableHlo.unary main_v33 main_v36 (broadcastInDim S64x32x8 ![0, 1, 2] bcast_S64x1x1_S64x32x8_0_1_2 : (⟨S64x1x1, .f32⟩ : BufTy).Contents (Elt F) → (⟨S64x32x8, .f32⟩ : BufTy).Contents (Elt F)),
    StableHlo.binary main_v35 main_v36 main_v37 (Host.divf : (⟨S64x32x8, .f32⟩ : BufTy).Contents (Elt F) → (⟨S64x32x8, .f32⟩ : BufTy).Contents (Elt F) → (⟨S64x32x8, .f32⟩ : BufTy).Contents (Elt F)),
    StableHlo.unary main_v26 main_v38 (broadcastInDim S16x481x1x32x8 ![0, 1, 3, 4] bcast_S16x481x32x8_S16x481x1x32x8_0_1_3_4 : (⟨S16x481x32x8, .f32⟩ : BufTy).Contents (Elt F) → (⟨S16x481x1x32x8, .f32⟩ : BufTy).Contents (Elt F)),
    StableHlo.unary main_v37 main_v39 (broadcastInDim S1x1x64x32x8 ![2, 3, 4] bcast_S64x32x8_S1x1x64x32x8_2_3_4 : (⟨S64x32x8, .f32⟩ : BufTy).Contents (Elt F) → (⟨S1x1x64x32x8, .f32⟩ : BufTy).Contents (Elt F)),
    StableHlo.unary main_v38 main_v40 (broadcastInDim S16x481x64x32x8 ![0, 1, 2, 3, 4] bcast_S16x481x1x32x8_S16x481x64x32x8_0_1_2_3_4 : (⟨S16x481x1x32x8, .f32⟩ : BufTy).Contents (Elt F) → (⟨S16x481x64x32x8, .f32⟩ : BufTy).Contents (Elt F)),
    StableHlo.unary main_v39 main_v41 (broadcastInDim S16x481x64x32x8 ![0, 1, 2, 3, 4] bcast_S1x1x64x32x8_S16x481x64x32x8_0_1_2_3_4 : (⟨S1x1x64x32x8, .f32⟩ : BufTy).Contents (Elt F) → (⟨S16x481x64x32x8, .f32⟩ : BufTy).Contents (Elt F)),
    StableHlo.binary main_v40 main_v41 main_v42 (subf : (⟨S16x481x64x32x8, .f32⟩ : BufTy).Contents (Elt F) → (⟨S16x481x64x32x8, .f32⟩ : BufTy).Contents (Elt F) → (⟨S16x481x64x32x8, .f32⟩ : BufTy).Contents (Elt F)),
    StableHlo.binary main_v42 main_v42 main_v43 (mulf : (⟨S16x481x64x32x8, .f32⟩ : BufTy).Contents (Elt F) → (⟨S16x481x64x32x8, .f32⟩ : BufTy).Contents (Elt F) → (⟨S16x481x64x32x8, .f32⟩ : BufTy).Contents (Elt F)),
    StableHlo.nullary main_cst_8 (constant S_ .f32 0x00000000#32),
    StableHlo.binary main_v43 main_cst_8 main_v44 ((fun x v => Host.reduceAdd x v reducesTo_S16x481x64x32x8_S16x481x64x32_d4 h_S_) : (⟨S16x481x64x32x8, .f32⟩ : BufTy).Contents (Elt F) → (⟨S_, .f32⟩ : BufTy).Contents (Elt F) → (⟨S16x481x64x32, .f32⟩ : BufTy).Contents (Elt F)),
    StableHlo.nullary main_cst_9 (constant S_ .f32 0x7F800000#32),
    StableHlo.binary main_v44 main_cst_9 main_v45 ((fun x v => Host.reduce FloatOps.minimumf x v reducesTo_S16x481x64x32_S16x481x32_d2 h_S_) : (⟨S16x481x64x32, .f32⟩ : BufTy).Contents (Elt F) → (⟨S_, .f32⟩ : BufTy).Contents (Elt F) → (⟨S16x481x32, .f32⟩ : BufTy).Contents (Elt F)) ]

-- a hundred and four binds re-associated: the rewrite under the chain recurses once per statement
set_option maxRecDepth 8192 in
set_option maxHeartbeats 1600000 in
/-- @main is that straight line: the functions' definitions unfolded at their calls and the buffer records at their fields, both
    sides are one chain of single-operation steps once sequencing is re-associated. -/
theorem main_eq (c : Dev nD) : main (F := F) c = seq ops := by
  simp only [main, fn_std.body, fn_var.body, fn_where.body, fn_std_0.body, fn_var_1.body, fn_where_2.body, seq, bind_assoc, pure_bind]

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub ..,
    StableHlo.nullary_bufs_sub .., StableHlo.nullary_bufs_sub .., StableHlo.binary_bufs_sub .., StableHlo.unary_bufs_sub .., StableHlo.nullary_bufs_sub .., StableHlo.unary_bufs_sub ..,
    StableHlo.binary_bufs_sub .., StableHlo.unary_bufs_sub .., StableHlo.binary_bufs_sub .., StableHlo.binary_bufs_sub .., StableHlo.unary_bufs_sub .., StableHlo.nullary_bufs_sub ..,
    StableHlo.binary_bufs_sub .., StableHlo.nullary_bufs_sub .., StableHlo.binary_bufs_sub .., StableHlo.unary_bufs_sub .., StableHlo.unary_bufs_sub .., StableHlo.binary_bufs_sub ..,
    StableHlo.nullary_bufs_sub .., StableHlo.binary_bufs_sub .., StableHlo.nullary_bufs_sub .., StableHlo.unary_bufs_sub .., StableHlo.unary_bufs_sub .., StableHlo.ternary_bufs_sub ..,
    StableHlo.unary_bufs_sub .., StableHlo.nullary_bufs_sub .., StableHlo.unary_bufs_sub .., StableHlo.binary_bufs_sub .., StableHlo.unary_bufs_sub .., StableHlo.binary_bufs_sub ..,
    StableHlo.unary_bufs_sub .., StableHlo.binary_bufs_sub .., StableHlo.nullary_bufs_sub .., StableHlo.unary_bufs_sub .., StableHlo.nullary_bufs_sub .., StableHlo.unary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.unary_bufs_sub .., StableHlo.reshape_bufs_sub .., StableHlo.nullary_bufs_sub .., StableHlo.binary_bufs_sub .., StableHlo.unary_bufs_sub .., StableHlo.nullary_bufs_sub ..,
    StableHlo.unary_bufs_sub .., StableHlo.binary_bufs_sub .., StableHlo.nullary_bufs_sub .., StableHlo.nullary_bufs_sub .., StableHlo.binary_bufs_sub .., StableHlo.unary_bufs_sub ..,
    StableHlo.nullary_bufs_sub .., StableHlo.unary_bufs_sub .., StableHlo.binary_bufs_sub .., StableHlo.unary_bufs_sub .., StableHlo.binary_bufs_sub .., StableHlo.binary_bufs_sub ..,
    StableHlo.unary_bufs_sub .., StableHlo.nullary_bufs_sub .., StableHlo.binary_bufs_sub .., StableHlo.nullary_bufs_sub .., StableHlo.binary_bufs_sub .., StableHlo.unary_bufs_sub ..,
    StableHlo.unary_bufs_sub .., StableHlo.binary_bufs_sub .., StableHlo.nullary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub .., StableHlo.unary_bufs_sub .., StableHlo.binary_bufs_sub ..,
    StableHlo.unary_bufs_sub .., StableHlo.binary_bufs_sub .., StableHlo.unary_bufs_sub .., StableHlo.binary_bufs_sub .., StableHlo.unary_bufs_sub .., StableHlo.unary_bufs_sub ..,
    StableHlo.unary_bufs_sub .., StableHlo.unary_bufs_sub .., StableHlo.binary_bufs_sub .., StableHlo.binary_bufs_sub .., StableHlo.nullary_bufs_sub .., StableHlo.binary_bufs_sub ..,
    StableHlo.nullary_bufs_sub .., StableHlo.binary_bufs_sub ..⟩

/-- At the compiled mesh, for any float values, from any memory with zero counters: every weakly fair execution of @main on the
    TensorCores terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefOut.lean ====
/-
  What the reference program leaves in its result buffer, as a function of its two arguments.

  Read at the result buffer, the fold of the 104 operations over any starting contents is the reference's last ten operations
  applied to the two prepared arrays — the window array of the series and the z-scored shapelet table —, each of which is the composed
  term of the operations that produce it, applied to the argument it is computed from. No operation writes an argument buffer, so
  both arguments end as they started. Every equation is by computation on the list: each operation's result is read at its own
  buffer and passed over at every other.
-/
import proofs.«181568_j14310831030969_2_alg».proof.Proof.RefRun
import proofs.«181568_j14310831030969_2_alg».proof.Proof.Spec
import proofs.«181568_j14310831030969_2_alg».proof.Proof.HostChain

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.divf Host.sqrt in
set_option maxRecDepth 16384 in
set_option maxHeartbeats 1600000 in
/-- The fold at the result buffer is the last ten operations on the two prepared arrays: each operation's result read at its own
    buffer, the buffers' contents substituted operation by operation back to the two arguments. The reductions, the gather, the
    division and the square root stay folded throughout: the equation never looks inside them. -/
theorem out_eq (V : Valuation τ sig (Elt F)) :
    after ops V (main_v45 : DevRef τ sig)
      = Cert.DistMin.refTail (Cert.DistMin.patches (V (main_arg0 : DevRef τ sig))) (Cert.DistMin.shapelets (V (main_arg1 : DevRef τ sig))) := by
  after_results_simp
  rfl

set_option maxRecDepth 16384 in
set_option maxHeartbeats 1600000 in
/-- No operation writes the series' buffer. -/
theorem arg0_eq (V : Valuation τ sig (Elt F)) :
    after ops V (main_arg0 : DevRef τ sig) = V (main_arg0 : DevRef τ sig) := by
  after_results_simp

set_option maxRecDepth 16384 in
set_option maxHeartbeats 1600000 in
/-- No operation writes the shapelet table's buffer. -/
theorem arg1_eq (V : Valuation τ sig (Elt F)) :
    after ops V (main_arg1 : DevRef τ sig) = V (main_arg1 : DevRef τ sig) := by
  after_results_simp

/-- At the compiled mesh, for any float values, from any memory with zero counters: every weakly fair execution of the reference
    terminates with its result buffer holding the last ten operations' value on the two prepared arrays of the launch's arguments,
    and with both arguments unchanged. -/
theorem run_tail (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
          = Cert.DistMin.refTail (Cert.DistMin.patches (m ((c.tc : Thread nD τ).loc main_arg0)))
              (Cert.DistMin.shapelets (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v45).trans (out_eq _), (h c main_arg0).trans (arg0_eq _), (h c main_arg1).trans (arg1_eq _)⟩)
    (run_main (F := F) m ρ)

end Cert.ReferenceIdeal.HandRun

end
-- ==== Proof.RefTail.lean ====
/-
  The reference's last ten operations compute the least squared distance.

  At a result index (b, t, j) the minimum taken over the shapelet axis (axis 2 of [16, 481, 64, 32]) from +∞ is the fold of `min`
  over the 64 shapelets s of the entry at (b, t, s, j). That entry is the sum over the channel axis (axis 4 of [16, 481, 64, 32, 8])
  from 0 of the squared difference at (b, t, s, j, c); and the two broadcasts read, there, the window array at (b, t, j, c) and the
  shapelet table at (s, j, c). So the entry is 0 + Σ_c (P[b, t, j, c] - K[s, j, c])², which is d(b, t, j, s), and the whole
  array is the result array of the specification. The word for +∞ is the same word on both sides and is never evaluated.
-/
import proofs.«181568_j14310831030969_2_alg».proof.Proof.Spec
import Idealize.ShloMosaic.PureOps.Reduce
import Idealize.ShloMosaic.PureOps.Ideal.Laws
import Idealize.ShloMosaic.Lib.ValueIdx
import Idealize.ShloMosaic.Lib.IdealHost
import Idealize.ShloMosaic.Lib.Pipeline.Value

noncomputable section

namespace Cert.DistMin

open Idealize.ShloMosaic Idealize.ShloMosaic.ValueIdx Cert.ReferenceIdeal

/-! ## The two one-axis reductions: which source index sits over a result index -/

/-- Dropping the channel axis (axis 4) of [16, 481, 64, 32, 8] leaves [16, 481, 64, 32]. -/
theorem redChan : S16x481x64x32x8.Reduces [4] S16x481x64x32 := by decide

/-- Dropping the shapelet axis (axis 2) of [16, 481, 64, 32] leaves [16, 481, 32]. -/
theorem redShp : S16x481x64x32.Reduces [2] S16x481x32 := by decide

/-- Over (b, t, s, j), with channel c inserted on axis 4, sits (b, t, s, j, c). -/
theorem liftChan (b : Fin 16) (t : Fin 481) (s : Fin 64) (j : Fin 32) (c : Fin 8) :
    redChan.lift (ix4 b t s j) c = ix5 b t s j c := by
  funext a
  match a with
  | ⟨0, _⟩ => rfl
  | ⟨1, _⟩ => rfl
  | ⟨2, _⟩ => rfl
  | ⟨3, _⟩ => rfl
  | ⟨4, _⟩ => rfl

/-- Over (b, t, j), with shapelet s inserted on axis 2, sits (b, t, s, j). -/
theorem liftShp (b : Fin 16) (t : Fin 481) (j : Fin 32) (s : Fin 64) :
    redShp.lift (ix3 b t j) s = ix4 b t s j := by
  funext a
  match a with
  | ⟨0, _⟩ => rfl
  | ⟨1, _⟩ => rfl
  | ⟨2, _⟩ => rfl
  | ⟨3, _⟩ => rfl

/-! ## The two broadcasts read at an index -/

/-- The window array, given a unit shapelet axis and then copied along it, reads P[b, t, j, c] at (b, t, s, j, c). -/
theorem bcastP_apply (P : FVec Ideal S16x481x32x8 .f32) (b : Fin 16) (t : Fin 481) (s : Fin 64) (j : Fin 32) (c : Fin 8) :
    broadcastInDim S16x481x64x32x8 ![0, 1, 2, 3, 4] Gen.bcast_S16x481x1x32x8_S16x481x64x32x8_0_1_2_3_4
        (broadcastInDim S16x481x1x32x8 ![0, 1, 3, 4] Gen.bcast_S16x481x32x8_S16x481x1x32x8_0_1_3_4 P) (ix5 b t s j c)
      = P (ix4 b t j c) := by
  refine (broadcastInDim_apply _ _ _ (ix5 b t s j c) (ix5 b t (0 : Fin 1) j c) (fun a => ?_)).trans
    (broadcastInDim_apply _ _ _ (ix5 b t (0 : Fin 1) j c) (ix4 b t j c) (fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

/-- The shapelet table, given two unit window axes and then copied along them, reads K[s, j, c] at (b, t, s, j, c). -/
theorem bcastK_apply (K : FVec Ideal S64x32x8 .f32) (b : Fin 16) (t : Fin 481) (s : Fin 64) (j : Fin 32) (c : Fin 8) :
    broadcastInDim S16x481x64x32x8 ![0, 1, 2, 3, 4] Gen.bcast_S1x1x64x32x8_S16x481x64x32x8_0_1_2_3_4
        (broadcastInDim S1x1x64x32x8 ![2, 3, 4] Gen.bcast_S64x32x8_S1x1x64x32x8_2_3_4 K) (ix5 b t s j c)
      = K (ix3 s j c) := by
  refine (broadcastInDim_apply _ _ _ (ix5 b t s j c) (ix5 (0 : Fin 1) (0 : Fin 1) s j c) (fun a => ?_)).trans
    (broadcastInDim_apply _ _ _ (ix5 (0 : Fin 1) (0 : Fin 1) s j c) (ix3 s j c) (fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl

/-! ## The two reductions read at an index -/

/-- The sum over the channel axis from the zero word: at (b, t, s, j) the sum over the 8 channels. -/
theorem sumChan_apply (y : FVec Ideal S16x481x64x32x8 .f32) (b : Fin 16) (t : Fin 481) (s : Fin 64) (j : Fin 32) :
    Host.reduceAdd (F := Ideal) y (constant (F := Ideal) S_ .f32 0x00000000#32) Gen.reducesTo_S16x481x64x32x8_S16x481x64x32_d4 Gen.h_S_
        (ix4 b t s j)
      = ∑ c : Fin 8, y (ix5 b t s j c) := by
  refine (hostReduceAdd_apply y _ _ _ (ix4 b t s j)).trans ?_
  refine (Ideal.hostReduceAdd_single _ redChan y _ (ix4 b t s j)).trans ?_
  rw [constant_apply, Ideal.ofBits_zero_f32, zero_add]
  exact Finset.sum_congr rfl fun c _ => congrArg y (liftChan b t s j c)

/-- The minimum over the shapelet axis from a constant word: at (b, t, j) the fold of `min` over the 64 shapelets from that word's value. -/
theorem minShp_apply (x : FVec Ideal S16x481x64x32 .f32) (w : BitVec 32) (b : Fin 16) (t : Fin 481) (j : Fin 32) :
    Host.reduce FloatOps.minimumf x (constant (F := Ideal) S_ .f32 w) Gen.reducesTo_S16x481x64x32_S16x481x32_d2 Gen.h_S_ (ix3 b t j)
      = Finset.univ.fold min (Ideal.ofBits .f32 w) (fun s : Fin 64 => x (ix4 b t s j)) := by
  refine (Host.reduce_eq_fold_single FloatOps.minimumf x _ _ redShp _ (ix3 b t j)).trans ?_
  show Finset.univ.fold min (Ideal.ofBits .f32 w) (fun s : Fin 64 => x (redShp.lift (ix3 b t j) s)) = _
  exact Finset.fold_congr fun s _ => congrArg x (liftShp b t j s)

/-! ## The tail as the specification's array -/

theorem refTail_eq_G (P : FVec Ideal S16x481x32x8 .f32) (K : FVec Ideal S64x32x8 .f32) : refTail (F := Ideal) P K = G P K := by
  funext i
  obtain ⟨b, t, j, rfl⟩ : ∃ (b : Fin 16) (t : Fin 481) (j : Fin 32), i = ix3 b t j := ⟨i 0, i 1, i 2, eq_ix3 i⟩
  rw [G_apply]
  unfold refTail leastDist
  refine (minShp_apply _ _ b t j).trans ?_
  refine Finset.fold_congr fun s _ => ?_
  refine (sumChan_apply _ b t s j).trans ?_
  unfold dist
  refine Finset.sum_congr rfl fun c _ => ?_
  rw [mulf_apply, subf_apply, bcastP_apply, bcastK_apply]

end Cert.DistMin

end
-- ==== Proof.lean ====
/-
  The certificate's proof. The kernel — the z-scored series cut into 481 windows of 32 steps, the z-scored shapelet table, and then,
  per batch, a running minimum over the 64 shapelets of the squared distance summed over the 8 channels — against the jnp reference,
  which prepares the same two arrays by the same operations and takes the minimum over the shapelet axis of the broadcast squared
  difference summed over the channel axis.

  At the extended reals both end holding, at (b, t, j), the least over s of Σ_c (P[b, t, j, c] - K[s, j, c])², from +∞, where P and
  K are the two prepared arrays: the kernel by an induction over its 64 trips (a minimum over the shapelets below k after k trips),
  the reference by reading its two reductions at an index. Sums and minima in the extended reals are commutative and associative, so
  the two orders agree and the finiteness of the inputs is never used. The idealization rewrote nothing, so that claim is trivial;
  the two kernel frames are the generated ones, and the reference's frame is its run with the result dropped.
-/
import proofs.«181568_j14310831030969_2_alg».proof.Defs
import proofs.«181568_j14310831030969_2_alg».proof.Proof.Gen.Kernel
import proofs.«181568_j14310831030969_2_alg».proof.Proof.Gen.Kernel.Frame
import proofs.«181568_j14310831030969_2_alg».proof.Proof.Gen.KernelIdeal
import proofs.«181568_j14310831030969_2_alg».proof.Proof.Gen.KernelIdeal.Frame
import proofs.«181568_j14310831030969_2_alg».proof.Proof.Gen.KernelIdeal.Value
import proofs.«181568_j14310831030969_2_alg».proof.Proof.Gen.ReferenceIdeal
import proofs.«181568_j14310831030969_2_alg».proof.Proof.Gen.Pre_finite_inputs
import proofs.«181568_j14310831030969_2_alg».proof.Proof.Spec
import proofs.«181568_j14310831030969_2_alg».proof.Proof.HostChain
import proofs.«181568_j14310831030969_2_alg».proof.Proof.KernelBlocks
import proofs.«181568_j14310831030969_2_alg».proof.Proof.RefOut
import proofs.«181568_j14310831030969_2_alg».proof.Proof.RefTail

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.HandRun.run_tail (F := Ideal) m ρ)

/-- The idealization rewrote no operation. -/
theorem preserves : Cert.preserves_Kernel_KernelIdeal := trivial

/-- From memories agreeing on the arguments both programs end with the result array at the least squared distance of the prepared
    arrays: the kernel's run read block by block, the reference's run with its last ten operations read at an index. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.HandRun.run_tail (F := Ideal) m' ρ')
  rw [(hagree c).1, (hagree c).2]
  exact Cert.DistMin.refTail_eq_G _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
